-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x128 .f32) (main_arg11 : FVec F S128 .f32) (main_arg12 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x256 .f32) (main_arg1 : IVec S2x800000 32) (main_arg2 : FVec F S800000 .f32) (main_arg3 : FVec F S128x256 .f32) (main_arg4 : FVec F S128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S128x128 : Shape := ⟨2, ![128, 128]⟩
abbrev S1x800000 : Shape := ⟨2, ![1, 800000]⟩
abbrev S50000x128 : Shape := ⟨2, ![50000, 128]⟩
abbrev S5000x256 : Shape := ⟨2, ![5000, 256]⟩
abbrev S5000x128 : Shape := ⟨2, ![5000, 128]⟩
abbrev S256x128 : Shape := ⟨2, ![256, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩

abbrev nBuf : Space → Nat
  | .hbm => 110
  | .vmem => 40
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x1, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S50000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S800000x1, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S_, .i32⟩
  | .hbm, ⟨87, _⟩ => ⟨S_, .f32⟩
  | .hbm, ⟨88, _⟩ => ⟨S128, .f32⟩
  | .hbm, ⟨89, _⟩ => ⟨S1x128, .f32⟩
  | .hbm, ⟨90, _⟩ => ⟨S_, .f32⟩
  | .hbm, ⟨91, _⟩ => ⟨S1x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S_, .f32⟩
  | .hbm, ⟨104, _⟩ => ⟨S_, .i1⟩
  | .hbm, ⟨105, _⟩ => ⟨S_, .f32⟩
  | .hbm, ⟨106, _⟩ => ⟨S_, .f32⟩
  | .hbm, ⟨107, _⟩ => ⟨S128, .f32⟩
  | .hbm, ⟨108, _⟩ => ⟨S128, .f32⟩
  | .hbm, ⟨109, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S128, .f32⟩
  | .local _ .vmem, ⟨29, _⟩ => ⟨S128x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S5000x128, .f32⟩
  | .local _ .vmem, ⟨39, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_cst_3 : Ref sig .tc := ⟨.hbm, 57, rfl⟩
abbrev main_call0_v12 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v22 : Ref sig .tc := ⟨.hbm, 62, rfl⟩
abbrev main_v23 : Ref sig .tc := ⟨.hbm, 63, rfl⟩
abbrev main_c_4 : Ref sig .tc := ⟨.hbm, 64, rfl⟩
abbrev main_v24 : Ref sig .tc := ⟨.hbm, 65, rfl⟩
abbrev main_v25 : Ref sig .tc := ⟨.hbm, 66, rfl⟩
abbrev main_c_5 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_6 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_7 : Ref sig .tc := ⟨.hbm, 81, rfl⟩
abbrev main_v38 : Ref sig .tc := ⟨.hbm, 82, rfl⟩
abbrev main_cst_8 : Ref sig .tc := ⟨.hbm, 83, rfl⟩
abbrev main_v39 : Ref sig .tc := ⟨.hbm, 84, rfl⟩
abbrev main_v40 : Ref sig .tc := ⟨.hbm, 85, rfl⟩
abbrev main_c_9 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_cst_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_cst_1 : Ref sig .tc := ⟨.hbm, 97, rfl⟩
abbrev main_call1_v8 : Ref sig .tc := ⟨.hbm, 98, rfl⟩
abbrev main_call1_cst_2 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_cst_3 : Ref sig .tc := ⟨.hbm, 103, rfl⟩
abbrev main_call1_v12 : Ref sig .tc := ⟨.hbm, 104, rfl⟩
abbrev main_call1_cst_4 : Ref sig .tc := ⟨.hbm, 105, rfl⟩
abbrev main_call1_call0_v0 : Ref sig .tc := ⟨.hbm, 106, rfl⟩
abbrev main_call1_call0_v1 : Ref sig .tc := ⟨.hbm, 107, rfl⟩
abbrev main_v41 : Ref sig .tc := ⟨.hbm, 108, rfl⟩
abbrev main_v42 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  shapeCasts_S128_S128 : S128.ShapeCasts S128
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v18) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v37) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v41) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v42) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S128x256 : Shape := ⟨2, ![128, 256]⟩
abbrev S128 : Shape := ⟨1, ![128]⟩
abbrev S128x128 : Shape := ⟨2, ![128, 128]⟩
abbrev S1x800000 : Shape := ⟨2, ![1, 800000]⟩
abbrev S256x128 : Shape := ⟨2, ![256, 128]⟩
abbrev S50000x128 : Shape := ⟨2, ![50000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩

abbrev nBuf : Space → Nat
  | .hbm => 164
  | .vmem => 0
  | .smem => 0
  | _ => 0

abbrev hbmTy0_0 (i : Nat) : BufTy := match i % 128 with
  | 0 => ⟨S50000x256, .f32⟩
  | 1 => ⟨S2x800000, .i32⟩
  | 2 => ⟨S800000, .f32⟩
  | 3 => ⟨S128x256, .f32⟩
  | 4 => ⟨S128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128, .f32⟩
  | 12 => ⟨S128, .f32⟩
  | 13 => ⟨S1x800000, .i32⟩
  | 14 => ⟨S800000, .i32⟩
  | 15 => ⟨S1x800000, .i32⟩
  | 16 => ⟨S800000, .i32⟩
  | 17 => ⟨S256x128, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S800000x1, .f32⟩
  | 35 => ⟨S800000x128, .f32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S128x128, .f32⟩
  | 42 => ⟨S50000x128, .f32⟩
  | 43 => ⟨S1x128, .f32⟩
  | 44 => ⟨S50000x128, .f32⟩
  | 45 => ⟨S50000x128, .f32⟩
  | 46 => ⟨S128x128, .f32⟩
  | 47 => ⟨S50000x128, .f32⟩
  | 48 => ⟨S50000x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S50000x128, .f32⟩
  | 62 => ⟨S50000x128, .f32⟩
  | 63 => ⟨S50000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S128, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S800000x1, .f32⟩
  | 106 => ⟨S800000x128, .f32⟩
  | 107 => ⟨S800000x128, .f32⟩
  | 108 => ⟨S_, .f32⟩
  | 109 => ⟨S50000x128, .f32⟩
  | 110 => ⟨S800000x1, .i32⟩
  | 111 => ⟨S50000x128, .f32⟩
  | 112 => ⟨S128x128, .f32⟩
  | 113 => ⟨S50000x128, .f32⟩
  | 114 => ⟨S1x128, .f32⟩
  | 115 => ⟨S50000x128, .f32⟩
  | 116 => ⟨S50000x128, .f32⟩
  | 117 => ⟨S128x128, .f32⟩
  | 118 => ⟨S50000x128, .f32⟩
  | 119 => ⟨S50000x128, .f32⟩
  | 120 => ⟨S_, .f32⟩
  | 121 => ⟨S128, .f32⟩
  | 122 => ⟨S_, .f32⟩
  | 123 => ⟨S128, .f32⟩
  | 124 => ⟨S128, .f32⟩
  | 125 => ⟨S_, .i32⟩
  | 126 => ⟨S_, .f32⟩
  | 127 => ⟨S128, .f32⟩
  | _ => ⟨S50000x256, .f32⟩

abbrev hbmTy0_1 (i : Nat) : BufTy := match i % 128 with
  | 0 => ⟨S1x128, .f32⟩
  | 1 => ⟨S_, .f32⟩
  | 2 => ⟨S1x128, .f32⟩
  | 3 => ⟨S1x128, .f32⟩
  | 4 => ⟨S50000x128, .f32⟩
  | 5 => ⟨S50000x128, .f32⟩
  | 6 => ⟨S50000x128, .f32⟩
  | 7 => ⟨S_, .f32⟩
  | 8 => ⟨S_, .f32⟩
  | 9 => ⟨S_, .f32⟩
  | 10 => ⟨S_, .f32⟩
  | 11 => ⟨S128, .f32⟩
  | 12 => ⟨S128, .f32⟩
  | 13 => ⟨S128, .f32⟩
  | 14 => ⟨S_, .f32⟩
  | 15 => ⟨S_, .i1⟩
  | 16 => ⟨S_, .f32⟩
  | 17 => ⟨S_, .f32⟩
  | 18 => ⟨S128, .f32⟩
  | 19 => ⟨S128, .f32⟩
  | 20 => ⟨S1x128, .f32⟩
  | 21 => ⟨S50000x128, .f32⟩
  | 22 => ⟨S50000x128, .f32⟩
  | 23 => ⟨S_, .f32⟩
  | 24 => ⟨S128, .f32⟩
  | 25 => ⟨S128, .f32⟩
  | 26 => ⟨S128, .f32⟩
  | 27 => ⟨S1x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_cst : Ref sig .tc := ⟨.hbm, 22, rfl⟩
abbrev main_call0_v0 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_1 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_c_3 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_cst_1 : Ref sig .tc := ⟨.hbm, 65, rfl⟩
abbrev main_call1_v8 : Ref sig .tc := ⟨.hbm, 66, rfl⟩
abbrev main_call1_cst_2 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_cst_3 : Ref sig .tc := ⟨.hbm, 71, rfl⟩
abbrev main_call1_v12 : Ref sig .tc := ⟨.hbm, 72, rfl⟩
abbrev main_call1_cst_4 : Ref sig .tc := ⟨.hbm, 73, rfl⟩
abbrev main_call1_call0_v0 : Ref sig .tc := ⟨.hbm, 74, rfl⟩
abbrev main_call1_call0_v1 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_4 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_call2_cst : Ref sig .tc := ⟨.hbm, 93, rfl⟩
abbrev main_call2_v0 : Ref sig .tc := ⟨.hbm, 94, rfl⟩
abbrev main_v50 : Ref sig .tc := ⟨.hbm, 95, rfl⟩
abbrev main_c_5 : Ref sig .tc := ⟨.hbm, 96, rfl⟩
abbrev main_v51 : Ref sig .tc := ⟨.hbm, 97, rfl⟩
abbrev main_v52 : Ref sig .tc := ⟨.hbm, 98, rfl⟩
abbrev main_c_6 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_cst_7 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_8 : Ref sig .tc := ⟨.hbm, 120, rfl⟩
abbrev main_v72 : Ref sig .tc := ⟨.hbm, 121, rfl⟩
abbrev main_cst_9 : Ref sig .tc := ⟨.hbm, 122, rfl⟩
abbrev main_v73 : Ref sig .tc := ⟨.hbm, 123, rfl⟩
abbrev main_v74 : Ref sig .tc := ⟨.hbm, 124, rfl⟩
abbrev main_c_10 : Ref sig .tc := ⟨.hbm, 125, rfl⟩
abbrev main_call3_cst : Ref sig .tc := ⟨.hbm, 126, rfl⟩
abbrev main_call3_v0 : Ref sig .tc := ⟨.hbm, 127, rfl⟩
abbrev main_call3_v1 : Ref sig .tc := ⟨.hbm, 128, rfl⟩
abbrev main_call3_cst_0 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_v6 : Ref sig .tc := ⟨.hbm, 134, rfl⟩
abbrev main_call3_v7 : Ref sig .tc := ⟨.hbm, 135, rfl⟩
abbrev main_call3_cst_1 : Ref sig .tc := ⟨.hbm, 136, rfl⟩
abbrev main_call3_v8 : Ref sig .tc := ⟨.hbm, 137, rfl⟩
abbrev main_call3_cst_2 : Ref sig .tc := ⟨.hbm, 138, rfl⟩
abbrev main_call3_v9 : Ref sig .tc := ⟨.hbm, 139, rfl⟩
abbrev main_call3_v10 : Ref sig .tc := ⟨.hbm, 140, rfl⟩
abbrev main_call3_v11 : Ref sig .tc := ⟨.hbm, 141, rfl⟩
abbrev main_call3_cst_3 : Ref sig .tc := ⟨.hbm, 142, rfl⟩
abbrev main_call3_v12 : Ref sig .tc := ⟨.hbm, 143, rfl⟩
abbrev main_call3_cst_4 : Ref sig .tc := ⟨.hbm, 144, rfl⟩
abbrev main_call3_call0_v0 : Ref sig .tc := ⟨.hbm, 145, rfl⟩
abbrev main_call3_call0_v1 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_cst_11 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  transposes_S128x128_S128x128_1_0 : S128x128.Transposes [1, 0] S128x128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel's run with its result named: every weakly fair execution of the five tiled regions and the host
  operations between them terminates, nothing faulting, with every argument array as launched and the result array at
  what the last boundary of the fold through the program holds there. The later modules read that boundary value back,
  region by region, to the network's value.
-/
import proofs.«155673_j17626545783593_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The launch over the program's twelve segments, the last thread state read against the final state: the result
    buffer holds the last boundary's contents, each argument its launch contents. -/
theorem run : θ_run defs (onTc (τ := τ) (main (F := F))) ⟨m, fun _ => 0, ρ⟩ (fun r => ∀ c : Dev nD,
      r.2.mem ((c.tc : Thread nD τ).loc main_v42) = W12 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v42 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.KRun

end
-- ==== Proof.Spec.lean ====
/-
  The mathematics both programs compute, stage by stage, as whole-array functions of the argument arrays
  (a two-layer graph convolution with batch normalisation over N = 50000 nodes, E = 800000 edges, 128 hidden features):

    h0  = max (x · W_inᵀ + b_in) 0                                   -- the input projection, then relu
    agg = Σ_{e : dst e = i} feat e · h (src e)                         -- gather along the edges, weigh, scatter-add
    h1  = (agg h0 · W1_relᵀ + b1_rel) + h0 · W1_rootᵀ                 -- the first graph convolution
    h2  = max (((h1 - mean h1) · rsqrt (var h1 + ε)) · γ + β) 0       -- batch normalisation over the nodes, then relu
    h3  = (agg h2 · W2_relᵀ + b2_rel) + h2 · W2_rootᵀ                 -- the second graph convolution
    out = ((h3 - mean h3) · rsqrt (var h3 + ε)) · γ + β

  Each stage is spelt with the host operations in the order the reference applies them, so that the reference's run
  ends at `out` by unfolding, and the kernel's five tiled regions are compared with the stages one at a time.
  The edge aggregation, the mean and the variance are the SAME host operations in both programs: they are named here
  once and never opened.
-/
import proofs.«155673_j17626545783593_1_alg».proof.Proof.Gen.ReferenceIdeal
import Idealize.ShloMosaic.PureOps.Ideal

noncomputable section

namespace Cert.Spec

open Idealize.ShloMosaic Cert.ReferenceIdeal Cert.ReferenceIdeal.Facts₀

variable {F : FTy → Type} [FloatOps F]

/-- A float array of shape `S`. -/
abbrev Mat (F : FTy → Type) [FloatOps F] (S : Shape) := (⟨S, .f32⟩ : BufTy).Contents (Elt F)
/-- A 32-bit integer array of shape `S`. -/
abbrev IMat (F : FTy → Type) [FloatOps F] (S : Shape) := (⟨S, .i32⟩ : BufTy).Contents (Elt F)

/-- Row `r` (0: the sources, 1: the destinations) of the edge list, as a vector over the edges. -/
def srcOf (adj : IMat F S2x800000) : IMat F S800000 :=
  fun i => shapeCast S800000 (extractStridedSlice S1x800000 ![0, 0] adj slices_S2x800000_S1x800000_0_0) shapeCasts_S1x800000_S800000 i
def dstOf (adj : IMat F S2x800000) : IMat F S800000 :=
  fun i => shapeCast S800000 (extractStridedSlice S1x800000 ![1, 0] adj slices_S2x800000_S1x800000_1_0) shapeCasts_S1x800000_S800000 i

/-- A vector over the 128 features as a row, then as every row of a node array. -/
def rows (b : Mat F S128) : Mat F S50000x128 :=
  broadcastInDim S50000x128 ![0, 1] bcast_S1x128_S50000x128_0_1 (broadcastInDim S1x128 ![1] bcast_S128_S1x128_1 b)

/-- The zero node array. -/
def zeros : Mat F S50000x128 := broadcastInDim S50000x128 ![] bcast_S_S50000x128 (constant S_ .f32 0x00000000#32)

/-- relu: the maximum with zero, entry by entry. -/
def relu (h : Mat F S50000x128) : Mat F S50000x128 := maximumf h zeros

/-- The input projection `x · Wᵀ + b` before the relu. -/
def linPre (x : Mat F S50000x256) (W : Mat F S128x256) (b : Mat F S128) : Mat F S50000x128 :=
  addf (Host.dotGeneral dot_S50000x256_S256x128_S50000x128_1_0_0_1_n_n none x (transpose S256x128 [1, 0] W transposes_S128x256_S256x128_1_0)) (rows b)

/-- The input layer. -/
def lin0 (x : Mat F S50000x256) (W : Mat F S128x256) (b : Mat F S128) : Mat F S50000x128 := relu (linPre x W b)

/-- The edge aggregation: the rows of `h` at the edges' sources (a negative index counted from the end), each weighed
    by its edge's feature, summed into the rows at the edges' destinations. -/
def agg (h : Mat F S50000x128) (src dst : IMat F S800000) (feat : Mat F S800000) : Mat F S50000x128 :=
  Host.scatterAdd scatter_S50000x128_S800000x1_S800000x128_1_0_0_1 zeros
    (broadcastInDim S800000x1 ![0] bcast_S800000_S800000x1_0 dst)
    (mulf
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x128 ![0, 1] bcast_S800000x1_S800000x128_0_1 (broadcastInDim S800000x1 ![0] bcast_S800000_S800000x1_0 feat)))

/-- One graph convolution: `(a · W_relᵀ + b_rel) + h · W_rootᵀ`. -/
def comb (a h : Mat F S50000x128) (Wrel : Mat F S128x128) (brel : Mat F S128) (Wroot : Mat F S128x128) : Mat F S50000x128 :=
  addf
    (addf (Host.dotGeneral dot_S50000x128_S128x128_S50000x128_1_0_0_1_n_n none a (transpose S128x128 [1, 0] Wrel transposes_S128x128_S128x128_1_0)) (rows brel))
    (Host.dotGeneral dot_S50000x128_S128x128_S50000x128_1_0_0_1_n_n none h (transpose S128x128 [1, 0] Wroot transposes_S128x128_S128x128_1_0))

/-- The mean over the nodes, per feature. -/
def mean (h : Mat F S50000x128) : Mat F S128 :=
  Host.divf (Host.reduceAdd h (constant S_ .f32 0x00000000#32) reducesTo_S50000x128_S128_d0 h_S_)
    (broadcastInDim S128 ![] bcast_S_S128 (constant S_ .f32 0x47435000#32))

/-- The number of nodes less the correction 0, as the variance's divisor. -/
def nCorr : (⟨S_, .f32⟩ : BufTy).Contents (Elt F) :=
  subf (constant S_ .f32 0x47435000#32) (sitofp .f32 (constantI S_ 32 0#32))

/-- The variance over the nodes, per feature (the mean of the squared deviations, kept where the divisor is positive). -/
def var (h : Mat F S50000x128) : Mat F S128 :=
  select (broadcastInDim S128 ![] bcast_S_S128 (cmpf .ogt (nCorr (F := F)) (constant S_ .f32 0x00000000#32)))
    (Host.divf
      (Host.reduceAdd
        (mulf
          (subf h (broadcastInDim S50000x128 ![0, 1] bcast_S1x128_S50000x128_0_1
            (Host.divf (broadcastInDim S1x128 ![1] bcast_S128_S1x128_1 (Host.reduceAdd h (constant S_ .f32 0x00000000#32) reducesTo_S50000x128_S128_d0 h_S_))
              (broadcastInDim S1x128 ![] bcast_S_S1x128 (constant S_ .f32 0x47435000#32)))))
          (subf h (broadcastInDim S50000x128 ![0, 1] bcast_S1x128_S50000x128_0_1
            (Host.divf (broadcastInDim S1x128 ![1] bcast_S128_S1x128_1 (Host.reduceAdd h (constant S_ .f32 0x00000000#32) reducesTo_S50000x128_S128_d0 h_S_))
              (broadcastInDim S1x128 ![] bcast_S_S1x128 (constant S_ .f32 0x47435000#32))))))
        (constant S_ .f32 0x00000000#32) reducesTo_S50000x128_S128_d0 h_S_)
      (broadcastInDim S128 ![] bcast_S_S128 (nCorr (F := F))))
    (broadcastInDim S128 ![] bcast_S_S128 (id (constant S_ .f32 0x7FC00000#32)))

/-- Batch normalisation given the statistics: `((h - μ) · rsqrt (v + ε)) · γ + β`. -/
def bn (h : Mat F S50000x128) (mu v gamma beta : Mat F S128) : Mat F S50000x128 :=
  addf
    (mulf
      (mulf (subf h (rows mu))
        (rows (Host.rsqrt (addf v (broadcastInDim S128 ![] bcast_S_S128 (constant S_ .f32 0x3727C5AC#32))))))
      (rows gamma))
    (rows beta)

/-- The whole network. -/
def net (x : Mat F S50000x256) (adj : IMat F S2x800000) (feat : Mat F S800000) (Win : Mat F S128x256) (bin : Mat F S128)
    (W1rel : Mat F S128x128) (b1rel : Mat F S128) (W1root : Mat F S128x128)
    (W2rel : Mat F S128x128) (b2rel : Mat F S128) (W2root : Mat F S128x128) (gamma beta : Mat F S128) : Mat F S50000x128 :=
  let h0 := lin0 x Win bin
  let h1 := comb (agg h0 (srcOf adj) (dstOf adj) feat) h0 W1rel b1rel W1root
  let h2 := relu (bn h1 (mean h1) (var h1) gamma beta)
  let h3 := comb (agg h2 (srcOf adj) (dstOf adj) feat) h2 W2rel b2rel W2root
  bn h3 (mean h3) (var h3) gamma beta

end Cert.Spec

end
-- ==== Proof.KKeepTac.lean ====
/-
  One tactic for "this stretch of host operations does not write that buffer".
-/
import Idealize.ShloMosaic.Lib.StableHlo.Run

namespace Cert.KernelIdeal.KKeep

open Idealize.ShloMosaic

/-- A buffer no operation of a stretch writes holds after the stretch what it held before it: each operation's one
    written buffer is a different buffer. -/
macro "host_keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

end Cert.KernelIdeal.KKeep
-- ==== Proof.KKeepA.lean ====
/-
  What a stretch of host operations leaves untouched: a buffer that none of the stretch's operations writes (an argument
  array, an earlier region's result, the edge list's two rows) holds after the stretch what it held before it.
  Here: the stretches before the first and the second region. One lemma per stretch and buffer, each by the one tactic of KKeepTac.
-/
import proofs.«155673_j17626545783593_1_alg».proof.Proof.Gen.KernelIdeal.Launch
import Idealize.ShloMosaic.Lib.StableHlo.Run
import proofs.«155673_j17626545783593_1_alg».proof.Proof.KKeepTac

set_option maxRecDepth 16384

noncomputable section

namespace Cert.KernelIdeal.KKeep

open Cert.KernelIdeal Cert.KernelIdeal.Gen Idealize.ShloMosaic Idealize.ShloMosaic.TcCoe Idealize.SL.Sem

variable {F : FTy → Type} [FloatOps F]

/-! ## The buffers the host operations of stretch 0 leave as they were -/

theorem keep0_arg0 (W : Valuation τ sig (Elt F)) :
    StableHlo.after hostOps0 W (Proc.devRef .tc main_arg0) = W (Proc.devRef .tc main_arg0) := by host_keeps hostOps0
theorem keep0_arg2 (W : Valuation τ sig (Elt F)) :
    StableHlo.after hostOps0 W (Proc.devRef .tc main_arg2) = W (Proc.devRef .tc main_arg2) := by host_keeps hostOps0
theorem keep0_arg3 (W : Valuation τ sig (Elt F)) :
    StableHlo.after hostOps0 W (Proc.devRef .tc main_arg3) = W (Proc.devRef .tc main_arg3) := by host_keeps hostOps0
theorem keep0_arg4 (W : Valuation τ sig (Elt F)) :
    StableHlo.after hostOps0 W (Proc.devRef .tc main_arg4) = W (Proc.devRef .tc main_arg4) := by host_keeps hostOps0
theorem keep0_arg5 (W : Valuation τ sig (Elt F)) :
    StableHlo.after hostOps0 W (Proc.devRef .tc main_arg5) = W (Proc.devRef .tc main_arg5) := by host_keeps hostOps0
theorem keep0_arg6 (W : Valuation τ sig (Elt F)) :
    StableHlo.after hostOps0 W (Proc.devRef .tc main_arg6) = W (Proc.devRef .tc main_arg6) := by host_keeps hostOps0
theorem keep0_arg7 (W : Valuation τ sig (Elt F)) :
    StableHlo.after hostOps0 W (Proc.devRef .tc main_arg7) = W (Proc.devRef .tc main_arg7) := by host_keeps hostOps0
theorem keep0_arg8 (W : Valuation τ sig (Elt F)) :
    StableHlo.after hostOps0 W (Proc.devRef .tc main_arg8) = W (Proc.devRef .tc main_arg8) := by host_keeps hostOps0
theorem keep0_arg9 (W : Valuation τ sig (Elt F)) :
    StableHlo.after hostOps0 W (Proc.devRef .tc main_arg9) = W (Proc.devRef .tc main_arg9) := by host_keeps hostOps0
theorem keep0_arg10 (W : Valuation τ sig (Elt F)) :
    StableHlo.after hostOps0 W (Proc.devRef .tc main_arg10) = W (Proc.devRef .tc main_arg10) := by host_keeps hostOps0
theorem keep0_arg11 (W : Valuation τ sig (Elt F)) :
    StableHlo.after hostOps0 W (Proc.devRef .tc main_arg11) = W (Proc.devRef .tc main_arg11) := by host_keeps hostOps0
theorem keep0_arg12 (W : Valuation τ sig (Elt F)) :
    StableHlo.after hostOps0 W (Proc.devRef .tc main_arg12) = W (Proc.devRef .tc main_arg12) := by host_keeps hostOps0

/-! ## The buffers the host operations of stretch 1 leave as they were -/

theorem keep1_v1 (W : Valuation τ sig (Elt F)) :
    StableHlo.after hostOps1 W (Proc.devRef .tc main_v1) = W (Proc.devRef .tc main_v1) := by host_keeps hostOps1
theorem keep1_v3 (W : Valuation τ sig (Elt F)) :
    StableHlo.after hostOps1 W (Proc.devRef .tc main_v3) = W (Proc.devRef .tc main_v3) := by host_keeps hostOps1
theorem keep1_v4 (W : Valuation τ sig (Elt F)) :
    StableHlo.after hostOps1 W (Proc.devRef .tc main_v4) = W (Proc.devRef .tc main_v4) := by host_keeps hostOps1
theorem keep1_arg2 (W : Valuation τ sig (Elt F)) :
    StableHlo.after hostOps1 W (Proc.devRef .tc main_arg2) = W (Proc.devRef .tc main_arg2) := by host_keeps hostOps1
theorem keep1_arg5 (W : Valuation τ sig (Elt F)) :
    StableHlo.after hostOps1 W (Proc.devRef .tc main_arg5) = W (Proc.devRef .tc main_arg5) := by host_keeps hostOps1
theorem keep1_arg6 (W : Valuation τ sig (Elt F)) :
    StableHlo.after hostOps1 W (Proc.devRef .tc main_arg6) = W (Proc.devRef .tc main_arg6) := by host_keeps hostOps1
theorem keep1_arg7 (W : Valuation τ sig (Elt F)) :
    StableHlo.after hostOps1 W (Proc.devRef .tc main_arg7) = W (Proc.devRef .tc main_arg7) := by host_keeps hostOps1
theorem keep1_arg8 (W : Valuation τ sig (Elt F)) :
    StableHlo.after hostOps1 W (Proc.devRef .tc main_arg8) = W (Proc.devRef .tc main_arg8) := by host_keeps hostOps1
theorem keep1_arg9 (W : Valuation τ sig (Elt F)) :
    StableHlo.after hostOps1 W (Proc.devRef .tc main_arg9) = W (Proc.devRef .tc main_arg9) := by host_keeps hostOps1
theorem keep1_arg10 (W : Valuation τ sig (Elt F)) :
    StableHlo.after hostOps1 W (Proc.devRef .tc main_arg10) = W (Proc.devRef .tc main_arg10) := by host_keeps hostOps1
theorem keep1_arg11 (W : Valuation τ sig (Elt F)) :
    StableHlo.after hostOps1 W (Proc.devRef .tc main_arg11) = W (Proc.devRef .tc main_arg11) := by host_keeps hostOps1
theorem keep1_arg12 (W : Valuation τ sig (Elt F)) :
    StableHlo.after hostOps1 W (Proc.devRef .tc main_arg12) = W (Proc.devRef .tc main_arg12) := by host_keeps hostOps1

end Cert.KernelIdeal.KKeep

end
-- ==== Proof.KKeepB.lean ====
/-
  What a stretch of host operations leaves untouched: a buffer that none of the stretch's operations writes (an argument
  array, an earlier region's result, the edge list's two rows) holds after the stretch what it held before it.
  Here: the stretches before the third, fourth and fifth region. One lemma per stretch and buffer, each by the one tactic of KKeepTac.
-/
import proofs.«155673_j17626545783593_1_alg».proof.Proof.Gen.KernelIdeal.Launch
import Idealize.ShloMosaic.Lib.StableHlo.Run
import proofs.«155673_j17626545783593_1_alg».proof.Proof.KKeepTac

set_option maxRecDepth 16384

noncomputable section

namespace Cert.KernelIdeal.KKeep

open Cert.KernelIdeal Cert.KernelIdeal.Gen Idealize.ShloMosaic Idealize.ShloMosaic.TcCoe Idealize.SL.Sem

variable {F : FTy → Type} [FloatOps F]

/-! ## The buffers the host operations of stretch 2 leave as they were -/

theorem keep2_v1 (W : Valuation τ sig (Elt F)) :
    StableHlo.after hostOps2 W (Proc.devRef .tc main_v1) = W (Proc.devRef .tc main_v1) := by host_keeps hostOps2
theorem keep2_v3 (W : Valuation τ sig (Elt F)) :
    StableHlo.after hostOps2 W (Proc.devRef .tc main_v3) = W (Proc.devRef .tc main_v3) := by host_keeps hostOps2
theorem keep2_v18 (W : Valuation τ sig (Elt F)) :
    StableHlo.after hostOps2 W (Proc.devRef .tc main_v18) = W (Proc.devRef .tc main_v18) := by host_keeps hostOps2
theorem keep2_arg2 (W : Valuation τ sig (Elt F)) :
    StableHlo.after hostOps2 W (Proc.devRef .tc main_arg2) = W (Proc.devRef .tc main_arg2) := by host_keeps hostOps2
theorem keep2_arg8 (W : Valuation τ sig (Elt F)) :
    StableHlo.after hostOps2 W (Proc.devRef .tc main_arg8) = W (Proc.devRef .tc main_arg8) := by host_keeps hostOps2
theorem keep2_arg9 (W : Valuation τ sig (Elt F)) :
    StableHlo.after hostOps2 W (Proc.devRef .tc main_arg9) = W (Proc.devRef .tc main_arg9) := by host_keeps hostOps2
theorem keep2_arg10 (W : Valuation τ sig (Elt F)) :
    StableHlo.after hostOps2 W (Proc.devRef .tc main_arg10) = W (Proc.devRef .tc main_arg10) := by host_keeps hostOps2
theorem keep2_arg11 (W : Valuation τ sig (Elt F)) :
    StableHlo.after hostOps2 W (Proc.devRef .tc main_arg11) = W (Proc.devRef .tc main_arg11) := by host_keeps hostOps2
theorem keep2_arg12 (W : Valuation τ sig (Elt F)) :
    StableHlo.after hostOps2 W (Proc.devRef .tc main_arg12) = W (Proc.devRef .tc main_arg12) := by host_keeps hostOps2

/-! ## The buffers the host operations of stretch 2.1 leave as they were -/

theorem keep2_1_v1 (W : Valuation τ sig (Elt F)) :
    StableHlo.after hostOps2_1 W (Proc.devRef .tc main_v1) = W (Proc.devRef .tc main_v1) := by host_keeps hostOps2_1
theorem keep2_1_v3 (W : Valuation τ sig (Elt F)) :
    StableHlo.after hostOps2_1 W (Proc.devRef .tc main_v3) = W (Proc.devRef .tc main_v3) := by host_keeps hostOps2_1
theorem keep2_1_v18 (W : Valuation τ sig (Elt F)) :
    StableHlo.after hostOps2_1 W (Proc.devRef .tc main_v18) = W (Proc.devRef .tc main_v18) := by host_keeps hostOps2_1
theorem keep2_1_v21 (W : Valuation τ sig (Elt F)) :
    StableHlo.after hostOps2_1 W (Proc.devRef .tc main_v21) = W (Proc.devRef .tc main_v21) := by host_keeps hostOps2_1
theorem keep2_1_arg2 (W : Valuation τ sig (Elt F)) :
    StableHlo.after hostOps2_1 W (Proc.devRef .tc main_arg2) = W (Proc.devRef .tc main_arg2) := by host_keeps hostOps2_1
theorem keep2_1_arg8 (W : Valuation τ sig (Elt F)) :
    StableHlo.after hostOps2_1 W (Proc.devRef .tc main_arg8) = W (Proc.devRef .tc main_arg8) := by host_keeps hostOps2_1
theorem keep2_1_arg9 (W : Valuation τ sig (Elt F)) :
    StableHlo.after hostOps2_1 W (Proc.devRef .tc main_arg9) = W (Proc.devRef .tc main_arg9) := by host_keeps hostOps2_1
theorem keep2_1_arg10 (W : Valuation τ sig (Elt F)) :
    StableHlo.after hostOps2_1 W (Proc.devRef .tc main_arg10) = W (Proc.devRef .tc main_arg10) := by host_keeps hostOps2_1
theorem keep2_1_arg11 (W : Valuation τ sig (Elt F)) :
    StableHlo.after hostOps2_1 W (Proc.devRef .tc main_arg11) = W (Proc.devRef .tc main_arg11) := by host_keeps hostOps2_1
theorem keep2_1_arg12 (W : Valuation τ sig (Elt F)) :
    StableHlo.after hostOps2_1 W (Proc.devRef .tc main_arg12) = W (Proc.devRef .tc main_arg12) := by host_keeps hostOps2_1

/-! ## The buffers the host operations of stretch 3 leave as they were -/

theorem keep3_v23 (W : Valuation τ sig (Elt F)) :
    StableHlo.after hostOps3 W (Proc.devRef .tc main_v23) = W (Proc.devRef .tc main_v23) := by host_keeps hostOps3
theorem keep3_arg8 (W : Valuation τ sig (Elt F)) :
    StableHlo.after hostOps3 W (Proc.devRef .tc main_arg8) = W (Proc.devRef .tc main_arg8) := by host_keeps hostOps3
theorem keep3_arg9 (W : Valuation τ sig (Elt F)) :
    StableHlo.after hostOps3 W (Proc.devRef .tc main_arg9) = W (Proc.devRef .tc main_arg9) := by host_keeps hostOps3
theorem keep3_arg10 (W : Valuation τ sig (Elt F)) :
    StableHlo.after hostOps3 W (Proc.devRef .tc main_arg10) = W (Proc.devRef .tc main_arg10) := by host_keeps hostOps3
theorem keep3_arg11 (W : Valuation τ sig (Elt F)) :
    StableHlo.after hostOps3 W (Proc.devRef .tc main_arg11) = W (Proc.devRef .tc main_arg11) := by host_keeps hostOps3
theorem keep3_arg12 (W : Valuation τ sig (Elt F)) :
    StableHlo.after hostOps3 W (Proc.devRef .tc main_arg12) = W (Proc.devRef .tc main_arg12) := by host_keeps hostOps3

/-! ## The buffers the host operations of stretch 4 leave as they were -/

theorem keep4_v37 (W : Valuation τ sig (Elt F)) :
    StableHlo.after hostOps4 W (Proc.devRef .tc main_v37) = W (Proc.devRef .tc main_v37) := by host_keeps hostOps4
theorem keep4_arg11 (W : Valuation τ sig (Elt F)) :
    StableHlo.after hostOps4 W (Proc.devRef .tc main_arg11) = W (Proc.devRef .tc main_arg11) := by host_keeps hostOps4
theorem keep4_arg12 (W : Valuation τ sig (Elt F)) :
    StableHlo.after hostOps4 W (Proc.devRef .tc main_arg12) = W (Proc.devRef .tc main_arg12) := by host_keeps hostOps4

/-! ## The buffers the host operations of stretch 4.1 leave as they were -/

theorem keep4_1_v37 (W : Valuation τ sig (Elt F)) :
    StableHlo.after hostOps4_1 W (Proc.devRef .tc main_v37) = W (Proc.devRef .tc main_v37) := by host_keeps hostOps4_1
theorem keep4_1_v40 (W : Valuation τ sig (Elt F)) :
    StableHlo.after hostOps4_1 W (Proc.devRef .tc main_v40) = W (Proc.devRef .tc main_v40) := by host_keeps hostOps4_1
theorem keep4_1_arg11 (W : Valuation τ sig (Elt F)) :
    StableHlo.after hostOps4_1 W (Proc.devRef .tc main_arg11) = W (Proc.devRef .tc main_arg11) := by host_keeps hostOps4_1
theorem keep4_1_arg12 (W : Valuation τ sig (Elt F)) :
    StableHlo.after hostOps4_1 W (Proc.devRef .tc main_arg12) = W (Proc.devRef .tc main_arg12) := by host_keeps hostOps4_1

end Cert.KernelIdeal.KKeep

end
-- ==== Proof.KHost.lean ====
/-
  What the kernel program's host operations compute between its regions, each stretch as one function of the buffers it
  reads: the edge list's two rows; the edge aggregation (gather along the sources, weigh by the edge feature, scatter-add
  into the destinations); the per-feature mean and variance over the nodes. They are the reference's own host operations,
  so each stretch's result is the corresponding stage of the network applied to what the stretch finds.
-/
import proofs.«155673_j17626545783593_1_alg».proof.Proof.Gen.KernelIdeal.Launch
import proofs.«155673_j17626545783593_1_alg».proof.Proof.Spec
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-- The sources: row 0 of the edge list. -/
theorem src_of (W : Valuation τ sig (Elt F)) :
    after hostOps0 W (Proc.devRef .tc main_v1) = Cert.Spec.srcOf (W (Proc.devRef .tc main_arg1)) := by
  after_results
  try rfl

/-- The destinations: row 1 of the edge list. -/
theorem dst_of (W : Valuation τ sig (Elt F)) :
    after hostOps0 W (Proc.devRef .tc main_v3) = Cert.Spec.dstOf (W (Proc.devRef .tc main_arg1)) := by
  after_results
  try rfl

/-- The first aggregation, of the input layer's result. -/
theorem agg1 (W : Valuation τ sig (Elt F)) :
    after hostOps1 W (Proc.devRef .tc main_v17)
      = Cert.Spec.agg (W (Proc.devRef .tc main_v4)) (W (Proc.devRef .tc main_v1)) (W (Proc.devRef .tc main_v3)) (W (Proc.devRef .tc main_arg2)) := by
  after_results_simp
  try rfl

/-- The first mean. -/
theorem mean1 (W : Valuation τ sig (Elt F)) :
    after hostOps2 W (Proc.devRef .tc main_v21) = Cert.Spec.mean (W (Proc.devRef .tc main_v18)) := by
  after_results
  try rfl

/-- The variance's correction, the integer 0, as the first stretch of statistics leaves it. -/
theorem zero1 (W : Valuation τ sig (Elt F)) :
    after hostOps2 W (Proc.devRef .tc main_c_3) = constantI S_ 32 0#32 := by
  after_results
  try rfl

/-- The first variance, when the correction it is handed is 0. -/
theorem var1 (W : Valuation τ sig (Elt F)) (hc : W (Proc.devRef .tc main_c_3) = constantI S_ 32 0#32) :
    after hostOps2_1 W (Proc.devRef .tc main_v22) = Cert.Spec.var (W (Proc.devRef .tc main_v18)) := by
  after_results_simp
  rw [hc]
  try rfl

/-- The second aggregation, of the normalised first layer. -/
theorem agg2 (W : Valuation τ sig (Elt F)) :
    after hostOps3 W (Proc.devRef .tc main_v36)
      = Cert.Spec.agg (W (Proc.devRef .tc main_v23)) (W (Proc.devRef .tc main_v1)) (W (Proc.devRef .tc main_v3)) (W (Proc.devRef .tc main_arg2)) := by
  after_results_simp
  try rfl

/-- The second mean. -/
theorem mean2 (W : Valuation τ sig (Elt F)) :
    after hostOps4 W (Proc.devRef .tc main_v40) = Cert.Spec.mean (W (Proc.devRef .tc main_v37)) := by
  after_results
  try rfl

theorem zero2 (W : Valuation τ sig (Elt F)) :
    after hostOps4 W (Proc.devRef .tc main_c_9) = constantI S_ 32 0#32 := by
  after_results
  try rfl

/-- The second variance. -/
theorem var2 (W : Valuation τ sig (Elt F)) (hc : W (Proc.devRef .tc main_c_9) = constantI S_ 32 0#32) :
    after hostOps4_1 W (Proc.devRef .tc main_v41) = Cert.Spec.var (W (Proc.devRef .tc main_v37)) := by
  after_results_simp
  rw [hc]
  try rfl

end Cert.KernelIdeal.KHost

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.PayRows.lean ====
/-
  Reading a feature vector laid along every row of a node array, in the kernel's spelling (cast to one row, then
  broadcast down the rows) and in the host's (broadcast along axis 1 to one row, then down the rows): either way the
  entry at (row, q) is the vector's entry q. Also the host's zero array and its scalar broadcasts at an index.
-/
import proofs.«155673_j17626545783593_1_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value

noncomputable section

namespace Cert.Pay

open Idealize.ShloMosaic Idealize.ShloMosaic.ValueIdx

section Rows
variable {α : Type}

/-- A vector cast to one row and broadcast down `m` rows reads, at `(r, q)`, the vector at `q`. -/
theorem rowK_at {m n : ℕ} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (r : Fin m) (q : Fin n) :
    broadcastTo ⟨2, ![m, n]⟩ (shapeCast ⟨2, ![1, n]⟩ x h1) hb (ix2 r q) = x (ix1 q) :=
  (broadcastTo_1b_ab_apply _ hb r q).trans (shapeCast_a_1a_apply x h1 0 q)

/-- A vector broadcast along axis 1 to one row and then down `m` rows reads, at `(p, q)`, the vector at `q`. -/
theorem rowH_at {m n : ℕ} (x : (⟨1, ![n]⟩ : Shape).Idx → α)
    (h1 : (⟨1, ![n]⟩ : Shape).BroadcastsInDim ⟨2, ![1, n]⟩ ![1])
    (hb : (⟨2, ![1, n]⟩ : Shape).BroadcastsInDim ⟨2, ![m, n]⟩ ![0, 1]) (p : Fin m) (q : Fin n) :
    broadcastInDim ⟨2, ![m, n]⟩ ![0, 1] hb (broadcastInDim ⟨2, ![1, n]⟩ ![1] h1 x) (ix2 p q) = x (ix1 q) := by
  refine (broadcastInDim_oneRow_apply hb _ p q).trans ?_
  refine broadcastInDim_apply ![1] h1 x (ix2 (0 : Fin 1) q) (ix1 q) fun a => ?_
  match a with
  | ⟨0, _⟩ =>
    show q.val = if n = 1 then 0 else q.val
    split
    · have := q.isLt; omega
    · rfl

end Rows

/-- The host's rows of a feature vector at `(p, q)`. -/
theorem rows_at (b : Cert.Spec.Mat Ideal Cert.ReferenceIdeal.S128) (p : Fin 50000) (q : Fin 128) :
    Cert.Spec.rows (F := Ideal) b (ix2 p q) = b (ix1 q) := by
  unfold Cert.Spec.rows
  exact rowH_at b _ _ p q

/-- The host's zero array reads the float zero everywhere. -/
theorem zeros_at (j : Cert.ReferenceIdeal.S50000x128.Idx) :
    Cert.Spec.zeros (F := Ideal) j = Ideal.ofBits .f32 0x00000000#32 := by
  unfold Cert.Spec.zeros
  exact broadcastInDim_scalar_apply _ _ j

end Cert.Pay

end
-- ==== Proof.PayLin.lean ====
import proofs.«155673_j17626545783593_1_alg».proof.Proof.Spec
import proofs.«155673_j17626545783593_1_alg».proof.Proof.Gen.KernelIdeal.Skeleton
import proofs.«155673_j17626545783593_1_alg».proof.Proof.LibDotRows
import proofs.«155673_j17626545783593_1_alg».proof.Proof.PayRows
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.Pay

open Idealize.ShloMosaic Idealize.ShloMosaic.ValueIdx

/-- The tile's matrix product into a zero accumulator, at `(p, q)`: the sum over the 256 input features. -/
theorem mmK256_at (l : FVec Ideal Cert.KernelIdeal.S5000x256 .bf16) (r : FVec Ideal Cert.KernelIdeal.S256x128 .bf16)
    (p : Fin 5000) (q : Fin 128) :
    matmul Cert.KernelIdeal.dot_S5000x256_S256x128_S5000x128_1_0_0_1_n_n none l r
        (constant (F := Ideal) Cert.KernelIdeal.S5000x128 .f32 0x00000000#32) (ix2 p q)
      = ∑ k : Fin 256, l (ix2 p k) * r (ix2 k q) := by
  refine (Ideal.matmul_constant_zero_apply Cert.KernelIdeal.dot_S5000x256_S256x128_S5000x128_1_0_0_1_n_n none l r (ix2 p q)).trans ?_
  dot_rows Cert.KernelIdeal.dot_S5000x256_S256x128_S5000x128_1_0_0_1_n_n Cert.KernelIdeal.S5000x256 Cert.KernelIdeal.S256x128 256

/-- The host's product of the whole arrays, at `(p, q)`: the same sum. -/
theorem mmH256_at (l : FVec Ideal Cert.ReferenceIdeal.S50000x256 .f32) (r : FVec Ideal Cert.ReferenceIdeal.S256x128 .f32)
    (p : Fin 50000) (q : Fin 128) :
    Host.dotGeneral Cert.ReferenceIdeal.dot_S50000x256_S256x128_S50000x128_1_0_0_1_n_n none l r (ix2 p q)
      = ∑ k : Fin 256, l (ix2 p k) * r (ix2 k q) := by
  refine (Ideal.dotGeneral_apply Cert.ReferenceIdeal.dot_S50000x256_S256x128_S50000x128_1_0_0_1_n_n none _ l r (ix2 p q)).trans ?_
  dot_rows Cert.ReferenceIdeal.dot_S50000x256_S256x128_S50000x128_1_0_0_1_n_n Cert.ReferenceIdeal.S50000x256 Cert.ReferenceIdeal.S256x128 256

/-- The input layer's tile: row `r` of a tile whose rows are rows of `x` holds, at feature `q`,
    `max (Σ_k x (p, k) · W (q, k) + b q) 0`, which is the input layer of the whole array at `(p, q)`.
    Both products read the weight through its transpose, so term k of either sum is the row's entry k times W (q, k). -/
theorem lin_at (xb : Vec Ideal Cert.KernelIdeal.S5000x256 .f32) (x : Cert.Spec.Mat Ideal Cert.ReferenceIdeal.S50000x256)
    (W : Vec Ideal Cert.KernelIdeal.S128x256 .f32) (b : Vec Ideal Cert.KernelIdeal.S128 .f32)
    (r : Fin 5000) (p : Fin 50000) (q : Fin 128) (hx : ∀ k : Fin 256, xb (ix2 r k) = x (ix2 p k)) :
    Cert.KernelIdeal.Gen.k0_pay1 (F := Ideal) xb W b (ix2 r q) = Cert.Spec.lin0 (F := Ideal) x W b (ix2 p q) := by
  unfold Cert.KernelIdeal.Gen.k0_pay1 Cert.Spec.lin0 Cert.Spec.relu Cert.Spec.linPre
  simp only [maximumf_apply, addf_apply, rows_at, rowK_at, zeros_at, broadcast_apply, mmK256_at, mmH256_at, truncf_apply]
  refine congrArg₂ max (congrArg (· + b (ix1 q)) (Finset.sum_congr rfl fun k _ => ?_)) rfl
  rw [hx k]
  refine congrArg (x (ix2 p k) * ·) ?_
  exact (transpose_ix2_apply (a := 128) (b := 256) _ _ k q).trans (transpose_ix2_apply (a := 128) (b := 256) _ _ k q).symm

end Cert.Pay

end
-- ==== Proof.KBlocks0.lean ====
/-
  Region 0 (the input layer), as one whole-array function of what it finds: the grid's ten points each take 5000 rows
  of x, the whole of W_in and b_in, and write back 5000 rows of the result; tile t's row r is row 5000·t + r, so the
  ten write-backs are the ten row blocks of  max (x · W_inᵀ + b_in) 0  and together they cover the result array.
-/
import proofs.«155673_j17626545783593_1_alg».proof.Proof.Gen.KernelIdeal.Frame
import proofs.«155673_j17626545783593_1_alg».proof.Proof.Spec
import proofs.«155673_j17626545783593_1_alg».proof.Proof.PayLin
import Idealize.ShloMosaic.Lib.Pipeline.Value
import Idealize.ShloMosaic.Lib.ValueIdx

set_option maxRecDepth 16384

noncomputable section

namespace Cert.KernelIdeal.KBlocks

open Cert.KernelIdeal Cert.KernelIdeal.Gen Idealize.ShloMosaic Idealize.ShloMosaic.TcCoe Idealize.SL.Sem Idealize.ShloMosaic.ValueIdx
open Idealize.ShloMosaic.Pipeline (Dat)

-- the buffer contents the region finds when it is entered
variable (V : (c : Dev nD) → (b : Ref sig .tc) → Buf (Elt Ideal) ((c : Thread nD τ).loc b))

theorem hz2_0 : (![0, 0] : Fin 2 → Nat) = fun _ => 0 := funext fun a => by fin_cases a <;> rfl
theorem hz1_0 : (![0] : Fin 1 → Nat) = fun _ => 0 := funext fun a => by fin_cases a; rfl

/-- The index maps over the ten points: the x tile and the result tile move down the rows with the point; W_in and
    b_in are taken whole at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Row r of point t's x tile is row 5000·t + r of x. -/
theorem xblk0 (c : Dev nD) (t : Fin cfg0.N) (r : Fin 5000) (k : Fin 256) (p : Fin 50000) (hp : p.val = t.val * 5000 + r.val) :
    (iblk0 V c 0 t : Vec Ideal S5000x256 .f32) (ix2 r k) = (V c main_arg0 : S50000x256.Idx → Elt Ideal .f32) (ix2 p k) := by
  obtain ⟨e0, e1, -⟩ := idx0 t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * r.val = p.val; omega
  | ⟨1, _⟩ => show win0_0.index t (1 : Fin 2) * 256 + 1 * k.val = k.val; omega

/-- Every point's W_in tile is W_in. -/
theorem wblk0 (c : Dev nD) (t : Fin cfg0.N) : (iblk0 V c 1 t : Vec Ideal S128x256 .f32) = V c main_arg3 := by
  obtain ⟨-, -, e2, e3, -⟩ := idx0 t
  funext y
  unfold iblk0
  rw [View.read_apply]
  show V c main_arg3 _ = V c main_arg3 y
  refine congrArg (V c main_arg3) ?_
  funext a
  apply Fin.ext
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- Every point's b_in tile is b_in. -/
theorem bblk0 (c : Dev nD) (t : Fin cfg0.N) : (iblk0 V c 2 t : Vec Ideal S128 .f32) = V c main_arg4 := by
  obtain ⟨-, -, -, -, e4, -⟩ := idx0 t
  funext y
  unfold iblk0
  rw [View.read_apply]
  show V c main_arg4 _ = V c main_arg4 y
  refine congrArg (V c main_arg4) ?_
  funext a
  apply Fin.ext
  match a with
  | ⟨0, _⟩ => show win0_2.index t (0 : Fin 1) * 128 + 1 * (y 0).val = (y 0).val; omega

/-- The stored tile at an entry, over variables: if the tile's rows are rows tv·5000 + r of x and its other two operands
    are W and b, the entry j of the tile is the input layer of the whole arrays at the entry i that j is sent to. -/
theorem tile0 (x : Cert.Spec.Mat Ideal Cert.ReferenceIdeal.S50000x256) (W : Vec Ideal S128x256 .f32) (b : Vec Ideal S128 .f32)
    (xb : Vec Ideal S5000x256 .f32) (Wb : Vec Ideal S128x256 .f32) (bb : Vec Ideal S128 .f32) (hW : Wb = W) (hb : bb = b) (tv : Nat)
    (hx : ∀ (r : Fin 5000) (k : Fin 256) (p : Fin 50000), p.val = tv * 5000 + r.val → xb (ix2 r k) = x (ix2 p k))
    (j : S5000x128.Idx) (i : S50000x128.Idx) (h0 : (i 0).val = tv * 5000 + (j 0).val) (h1 : (i 1).val = (j 1).val) :
    k0_pay1 (F := Ideal) xb Wb bb j = Cert.Spec.lin0 (F := Ideal) x W b i := by
  subst hW hb
  have hj : j = ix2 (⟨(j 0).val, idx2_lt0 j⟩ : Fin 5000) (⟨(j 1).val, idx2_lt1 j⟩ : Fin 128) :=
    funext fun a => by match a with | ⟨0, _⟩ => rfl | ⟨1, _⟩ => rfl
  have hi : i = ix2 (⟨(i 0).val, idx2_lt0 i⟩ : Fin 50000) (⟨(j 1).val, idx2_lt1 j⟩ : Fin 128) :=
    funext fun a => Fin.ext (by match a with | ⟨0, _⟩ => rfl | ⟨1, _⟩ => exact h1)
  exact (congrArg (k0_pay1 (F := Ideal) xb Wb bb) hj).trans
    ((Cert.Pay.lin_at xb x Wb bb _ _ _ (fun k => hx _ k _ h0)).trans (congrArg (Cert.Spec.lin0 (F := Ideal) x Wb bb) hi.symm))

/-- What point t writes back is block t of the input layer of the arrays the region finds. -/
theorem flushed0 (c : Dev nD) (t : Fin cfg0.N) :
    (dat0 V c).flushed 3 t
      = ((cfg0.win 3).blk t).view.read (Elt Ideal) (Cert.Spec.lin0 (F := Ideal) (V c main_arg0) (V c main_arg3) (V c main_arg4)) := by
  show (cfg0.win 3).cut (grid0.coords t) ((dat0 V c).after 3 t) = _
  rw [after0_3]
  unfold out0_3
  rw [View.canon_unit_zero hz2_0]
  simp only [View.ld_unit_zero (S := S5000x256) hz2_0, View.ld_unit_zero (S := S128x256) hz2_0, View.ld_unit_zero (S := S128) hz1_0]
  obtain ⟨e0, e1, e2, e3, e4, e5, e6⟩ := idx0 t
  funext j
  show k0_pay1 (iblk0 V c 0 t) (iblk0 V c 1 t) (iblk0 V c 2 t) j
    = Cert.Spec.lin0 (F := Ideal) (V c main_arg0) (V c main_arg3) (V c main_arg4) (((cfg0.win 3).blk t).view.emb j)
  refine tile0 _ _ _ _ _ _ (wblk0 V c t) (bblk0 V c t) t.val (fun r k p hp => xblk0 V c t r k p hp) j _ ?_ ?_
  · show win0_3.index t (0 : Fin 2) * 5000 + 1 * (j 0).val = t.val * 5000 + (j 0).val; omega
  · show win0_3.index t (1 : Fin 2) * 128 + 1 * (j 1).val = (j 1).val; omega

/-- An index of the result array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v4).slice (win0_3.rect t)).set ↔ _
  rw [View.set_slice_whole, Rect.mem_set_unit]
  exact Iff.rfl

/-- Row i₀ lies in the block of point i₀ / 5000: the ten blocks cover the result array. -/
theorem cover0 (i : S50000x128.Idx) : ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 10 := N_0
  have ht : (i 0).val / 5000 < cfg0.N := by rw [hN]; omega
  refine ⟨⟨(i 0).val / 5000, ht⟩, flush0_3 _, ?_⟩
  obtain ⟨-, -, -, -, -, e5, e6⟩ := idx0 ⟨(i 0).val / 5000, ht⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    have e5' : win0_3.index ⟨(i 0).val / 5000, ht⟩ (0 : Fin 2) = (i 0).val / 5000 := e5
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega

/-- Region 0's result array after the region: the input layer of the arrays it found. -/
theorem region0 (c : Dev nD) :
    (dat0 V c).arrAt 3 cfg0.N = Cert.Spec.lin0 (F := Ideal) (V c main_arg0) (V c main_arg3) (V c main_arg4) :=
  (dat0 V c).arrAt_eq_of_cover 3 _ (fun t _ => flushed0 V c t) cover0

end Cert.KernelIdeal.KBlocks

end
-- ==== Proof.PayComb.lean ====
import proofs.«155673_j17626545783593_1_alg».proof.Proof.Spec
import proofs.«155673_j17626545783593_1_alg».proof.Proof.Gen.KernelIdeal.Skeleton
import proofs.«155673_j17626545783593_1_alg».proof.Proof.LibDotRows
import proofs.«155673_j17626545783593_1_alg».proof.Proof.PayRows
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.Pay

open Idealize.ShloMosaic Idealize.ShloMosaic.ValueIdx

/-- A tile's matrix product with a square weight into a zero accumulator, at `(p, q)`: the sum over the 128 features. -/
theorem mmK128_at (l : FVec Ideal Cert.KernelIdeal.S5000x128 .bf16) (r : FVec Ideal Cert.KernelIdeal.S128x128 .bf16)
    (p : Fin 5000) (q : Fin 128) :
    matmul Cert.KernelIdeal.dot_S5000x128_S128x128_S5000x128_1_0_0_1_n_n none l r
        (constant (F := Ideal) Cert.KernelIdeal.S5000x128 .f32 0x00000000#32) (ix2 p q)
      = ∑ k : Fin 128, l (ix2 p k) * r (ix2 k q) := by
  refine (Ideal.matmul_constant_zero_apply Cert.KernelIdeal.dot_S5000x128_S128x128_S5000x128_1_0_0_1_n_n none l r (ix2 p q)).trans ?_
  dot_rows Cert.KernelIdeal.dot_S5000x128_S128x128_S5000x128_1_0_0_1_n_n Cert.KernelIdeal.S5000x128 Cert.KernelIdeal.S128x128 128

/-- The host's product of the whole node array with a square weight, at `(p, q)`: the same sum. -/
theorem mmH128_at (l : FVec Ideal Cert.ReferenceIdeal.S50000x128 .f32) (r : FVec Ideal Cert.ReferenceIdeal.S128x128 .f32)
    (p : Fin 50000) (q : Fin 128) :
    Host.dotGeneral Cert.ReferenceIdeal.dot_S50000x128_S128x128_S50000x128_1_0_0_1_n_n none l r (ix2 p q)
      = ∑ k : Fin 128, l (ix2 p k) * r (ix2 k q) := by
  refine (Ideal.dotGeneral_apply Cert.ReferenceIdeal.dot_S50000x128_S128x128_S50000x128_1_0_0_1_n_n none _ l r (ix2 p q)).trans ?_
  dot_rows Cert.ReferenceIdeal.dot_S50000x128_S128x128_S50000x128_1_0_0_1_n_n Cert.ReferenceIdeal.S50000x128 Cert.ReferenceIdeal.S128x128 128

/-- One graph convolution's tile (first layer): at `(r, q)` of a tile whose rows are rows `p` of the aggregate `a` and of `h`,
    `(Σ_k a (p, k) · W_rel (q, k) + b_rel q) + Σ_k h (p, k) · W_root (q, k)`.
    Each product reads its weight through the transpose, so term k of a sum is the row's entry k times W (q, k). -/
theorem comb1_at (ab hb : Vec Ideal Cert.KernelIdeal.S5000x128 .f32) (a h : Cert.Spec.Mat Ideal Cert.ReferenceIdeal.S50000x128)
    (Wrel Wroot : Vec Ideal Cert.KernelIdeal.S128x128 .f32) (brel : Vec Ideal Cert.KernelIdeal.S128 .f32)
    (r : Fin 5000) (p : Fin 50000) (q : Fin 128)
    (ha : ∀ k : Fin 128, ab (ix2 r k) = a (ix2 p k)) (hh : ∀ k : Fin 128, hb (ix2 r k) = h (ix2 p k)) :
    Cert.KernelIdeal.Gen.k1_pay1 (F := Ideal) ab hb Wrel Wroot brel (ix2 r q) = Cert.Spec.comb (F := Ideal) a h Wrel brel Wroot (ix2 p q) := by
  unfold Cert.KernelIdeal.Gen.k1_pay1 Cert.Spec.comb
  simp only [addf_apply, rows_at, rowK_at, mmK128_at, mmH128_at, truncf_apply, shapeCast_self]
  refine congrArg₂ (· + ·) (congrArg (· + brel (ix1 q)) (Finset.sum_congr rfl fun k _ => ?_)) (Finset.sum_congr rfl fun k _ => ?_)
  · rw [ha k]
    refine congrArg (a (ix2 p k) * ·) ?_
    exact (transpose_ix2_apply (a := 128) (b := 128) _ _ k q).trans (transpose_ix2_apply (a := 128) (b := 128) _ _ k q).symm
  · rw [hh k]
    refine congrArg (h (ix2 p k) * ·) ?_
    exact (transpose_ix2_apply (a := 128) (b := 128) _ _ k q).trans (transpose_ix2_apply (a := 128) (b := 128) _ _ k q).symm

/-- The same for the second layer's tile. -/
theorem comb3_at (ab hb : Vec Ideal Cert.KernelIdeal.S5000x128 .f32) (a h : Cert.Spec.Mat Ideal Cert.ReferenceIdeal.S50000x128)
    (Wrel Wroot : Vec Ideal Cert.KernelIdeal.S128x128 .f32) (brel : Vec Ideal Cert.KernelIdeal.S128 .f32)
    (r : Fin 5000) (p : Fin 50000) (q : Fin 128)
    (ha : ∀ k : Fin 128, ab (ix2 r k) = a (ix2 p k)) (hh : ∀ k : Fin 128, hb (ix2 r k) = h (ix2 p k)) :
    Cert.KernelIdeal.Gen.k3_pay1 (F := Ideal) ab hb Wrel Wroot brel (ix2 r q) = Cert.Spec.comb (F := Ideal) a h Wrel brel Wroot (ix2 p q) := by
  unfold Cert.KernelIdeal.Gen.k3_pay1 Cert.Spec.comb
  simp only [addf_apply, rows_at, rowK_at, mmK128_at, mmH128_at, truncf_apply, shapeCast_self]
  refine congrArg₂ (· + ·) (congrArg (· + brel (ix1 q)) (Finset.sum_congr rfl fun k _ => ?_)) (Finset.sum_congr rfl fun k _ => ?_)
  · rw [ha k]
    refine congrArg (a (ix2 p k) * ·) ?_
    exact (transpose_ix2_apply (a := 128) (b := 128) _ _ k q).trans (transpose_ix2_apply (a := 128) (b := 128) _ _ k q).symm
  · rw [hh k]
    refine congrArg (h (ix2 p k) * ·) ?_
    exact (transpose_ix2_apply (a := 128) (b := 128) _ _ k q).trans (transpose_ix2_apply (a := 128) (b := 128) _ _ k q).symm

end Cert.Pay

end
-- ==== Proof.KBlocks1.lean ====
/-
  Region 1 (the first graph convolution), as one whole-array function of what it finds: each of the grid's ten points
  takes 5000 rows of the aggregate and the same 5000 rows of h, the whole of W_rel, b_rel and W_root, and writes back 5000
  rows; the ten write-backs are the ten row blocks of  (a · W_relᵀ + b_rel) + h · W_rootᵀ  and cover the result array.
-/
import proofs.«155673_j17626545783593_1_alg».proof.Proof.Gen.KernelIdeal.Frame
import proofs.«155673_j17626545783593_1_alg».proof.Proof.Spec
import proofs.«155673_j17626545783593_1_alg».proof.Proof.PayComb
import Idealize.ShloMosaic.Lib.Pipeline.Value
import Idealize.ShloMosaic.Lib.ValueIdx

set_option maxRecDepth 16384

noncomputable section

namespace Cert.KernelIdeal.KBlocks

open Cert.KernelIdeal Cert.KernelIdeal.Gen Idealize.ShloMosaic Idealize.ShloMosaic.TcCoe Idealize.SL.Sem Idealize.ShloMosaic.ValueIdx
open Idealize.ShloMosaic.Pipeline (Dat)

-- the buffer contents the region finds when it is entered
variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a; rfl

/-- The index maps over the ten points: the two row tiles and the result tile move down the rows with the point; the
    weights and the bias are taken whole at every point. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of point t's aggregate tile is row 5000·t + r of the aggregate. -/
theorem ablk1 (c : Dev nD) (t : Fin cfg1.N) (r : Fin 5000) (k : Fin 128) (p : Fin 50000) (hp : p.val = t.val * 5000 + r.val) :
    (iblk1 V c 0 t : Vec Ideal S5000x128 .f32) (ix2 r k) = (V c main_v17 : S50000x128.Idx → Elt Ideal .f32) (ix2 p k) := by
  obtain ⟨e0, e1, -⟩ := idx1 t
  unfold iblk1
  rw [View.read_apply]
  show V c main_v17 _ = V c main_v17 _
  refine congrArg (V c main_v17) ?_
  funext a
  apply Fin.ext
  match a with
  | ⟨0, _⟩ => show win1_0.index t (0 : Fin 2) * 5000 + 1 * r.val = p.val; omega
  | ⟨1, _⟩ => show win1_0.index t (1 : Fin 2) * 128 + 1 * k.val = k.val; omega

/-- Row r of point t's h tile is row 5000·t + r of h. -/
theorem hblk1 (c : Dev nD) (t : Fin cfg1.N) (r : Fin 5000) (k : Fin 128) (p : Fin 50000) (hp : p.val = t.val * 5000 + r.val) :
    (iblk1 V c 1 t : Vec Ideal S5000x128 .f32) (ix2 r k) = (V c main_v4 : S50000x128.Idx → Elt Ideal .f32) (ix2 p k) := by
  obtain ⟨-, -, e2, e3, -⟩ := idx1 t
  unfold iblk1
  rw [View.read_apply]
  show V c main_v4 _ = V c main_v4 _
  refine congrArg (V c main_v4) ?_
  funext a
  apply Fin.ext
  match a with
  | ⟨0, _⟩ => show win1_1.index t (0 : Fin 2) * 5000 + 1 * r.val = p.val; omega
  | ⟨1, _⟩ => show win1_1.index t (1 : Fin 2) * 128 + 1 * k.val = k.val; omega

/-- Every point's W_rel tile is W_rel. -/
theorem wrelblk1 (c : Dev nD) (t : Fin cfg1.N) : (iblk1 V c 2 t : Vec Ideal S128x128 .f32) = V c main_arg5 := by
  obtain ⟨-, -, -, -, e4, e5, -⟩ := idx1 t
  funext y
  unfold iblk1
  rw [View.read_apply]
  show V c main_arg5 _ = V c main_arg5 y
  refine congrArg (V c main_arg5) ?_
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Every point's b_rel tile is b_rel. -/
theorem brelblk1 (c : Dev nD) (t : Fin cfg1.N) : (iblk1 V c 3 t : Vec Ideal S128 .f32) = V c main_arg6 := by
  obtain ⟨-, -, -, -, -, -, e6, -⟩ := idx1 t
  funext y
  unfold iblk1
  rw [View.read_apply]
  show V c main_arg6 _ = V c main_arg6 y
  refine congrArg (V c main_arg6) ?_
  funext a
  apply Fin.ext
  match a with
  | ⟨0, _⟩ => show win1_3.index t (0 : Fin 1) * 128 + 1 * (y 0).val = (y 0).val; omega

/-- Every point's W_root tile is W_root. -/
theorem wrootblk1 (c : Dev nD) (t : Fin cfg1.N) : (iblk1 V c 4 t : Vec Ideal S128x128 .f32) = V c main_arg7 := by
  obtain ⟨-, -, -, -, -, -, -, e7, e8, -⟩ := idx1 t
  funext y
  unfold iblk1
  rw [View.read_apply]
  show V c main_arg7 _ = V c main_arg7 y
  refine congrArg (V c main_arg7) ?_
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The stored tile at an entry, over variables: if the two row tiles are rows tv·5000 + r of a and of h and the other
    operands are W_rel, W_root and b_rel, the entry j of the tile is the graph convolution of the whole arrays at the
    entry i that j is sent to. -/
theorem tile1 (a h : Cert.Spec.Mat Ideal Cert.ReferenceIdeal.S50000x128) (Wrel Wroot : Vec Ideal S128x128 .f32) (brel : Vec Ideal S128 .f32)
    (ab hb : Vec Ideal S5000x128 .f32) (Wrelb Wrootb : Vec Ideal S128x128 .f32) (brelb : Vec Ideal S128 .f32)
    (hWrel : Wrelb = Wrel) (hWroot : Wrootb = Wroot) (hbrel : brelb = brel) (tv : Nat)
    (ha : ∀ (r : Fin 5000) (k : Fin 128) (p : Fin 50000), p.val = tv * 5000 + r.val → ab (ix2 r k) = a (ix2 p k))
    (hh : ∀ (r : Fin 5000) (k : Fin 128) (p : Fin 50000), p.val = tv * 5000 + r.val → hb (ix2 r k) = h (ix2 p k))
    (j : S5000x128.Idx) (i : S50000x128.Idx) (h0 : (i 0).val = tv * 5000 + (j 0).val) (h1 : (i 1).val = (j 1).val) :
    k1_pay1 (F := Ideal) ab hb Wrelb Wrootb brelb j = Cert.Spec.comb (F := Ideal) a h Wrel brel Wroot i := by
  subst hWrel hWroot hbrel
  have hj : j = ix2 (⟨(j 0).val, idx2_lt0 j⟩ : Fin 5000) (⟨(j 1).val, idx2_lt1 j⟩ : Fin 128) :=
    funext fun a => by match a with | ⟨0, _⟩ => rfl | ⟨1, _⟩ => rfl
  have hi : i = ix2 (⟨(i 0).val, idx2_lt0 i⟩ : Fin 50000) (⟨(j 1).val, idx2_lt1 j⟩ : Fin 128) :=
    funext fun a => Fin.ext (by match a with | ⟨0, _⟩ => rfl | ⟨1, _⟩ => exact h1)
  exact (congrArg (k1_pay1 (F := Ideal) ab hb Wrelb Wrootb brelb) hj).trans
    ((Cert.Pay.comb1_at ab hb a h Wrelb Wrootb brelb _ _ _ (fun k => ha _ k _ h0) (fun k => hh _ k _ h0)).trans
      (congrArg (Cert.Spec.comb (F := Ideal) a h Wrelb brelb Wrootb) hi.symm))

/-- What point t writes back is block t of the graph convolution of the arrays the region finds. -/
theorem flushed1 (c : Dev nD) (t : Fin cfg1.N) :
    (dat1 V c).flushed 5 t
      = ((cfg1.win 5).blk t).view.read (Elt Ideal)
          (Cert.Spec.comb (F := Ideal) (V c main_v17) (V c main_v4) (V c main_arg5) (V c main_arg6) (V c main_arg7)) := by
  show (cfg1.win 5).cut (grid1.coords t) ((dat1 V c).after 5 t) = _
  rw [after1_5]
  unfold out1_5
  rw [View.canon_unit_zero hz2_1]
  simp only [View.ld_unit_zero (S := S5000x128) hz2_1, View.ld_unit_zero (S := S128x128) hz2_1, View.ld_unit_zero (S := S128) hz1_1]
  obtain ⟨e0, e1, e2, e3, e4, e5, e6, e7, e8, e9, e10⟩ := idx1 t
  funext j
  show k1_pay1 (iblk1 V c 0 t) (iblk1 V c 1 t) (iblk1 V c 2 t) (iblk1 V c 4 t) (iblk1 V c 3 t) j
    = Cert.Spec.comb (F := Ideal) (V c main_v17) (V c main_v4) (V c main_arg5) (V c main_arg6) (V c main_arg7) (((cfg1.win 5).blk t).view.emb j)
  refine tile1 _ _ _ _ _ _ _ _ _ _ (wrelblk1 V c t) (wrootblk1 V c t) (brelblk1 V c t) t.val
    (fun r k p hp => ablk1 V c t r k p hp) (fun r k p hp => hblk1 V c t r k p hp) j _ ?_ ?_
  · show win1_5.index t (0 : Fin 2) * 5000 + 1 * (j 0).val = t.val * 5000 + (j 0).val; omega
  · show win1_5.index t (1 : Fin 2) * 128 + 1 * (j 1).val = (j 1).val; omega

/-- An index of the result array is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v18).slice (win1_5.rect t)).set ↔ _
  rw [View.set_slice_whole, Rect.mem_set_unit]
  exact Iff.rfl

/-- Row i₀ lies in the block of point i₀ / 5000: the ten blocks cover the result array. -/
theorem cover1 (i : S50000x128.Idx) : ∃ t : Fin cfg1.N, (cfg1.win 5).flush t = true ∧ i ∈ ((cfg1.win 5).blk t).view.set := by
  have hi0 : (i 0).val < 50000 := idx2_lt0 i
  have hi1 : (i 1).val < 128 := idx2_lt1 i
  have hN : cfg1.N = 10 := N_1
  have ht : (i 0).val / 5000 < cfg1.N := by rw [hN]; omega
  refine ⟨⟨(i 0).val / 5000, ht⟩, flush1_5 _, ?_⟩
  obtain ⟨-, -, -, -, -, -, -, -, -, e9, e10⟩ := idx1 ⟨(i 0).val / 5000, ht⟩
  rw [mem_blk1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    have e9' : win1_5.index ⟨(i 0).val / 5000, ht⟩ (0 : Fin 2) = (i 0).val / 5000 := e9
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    omega

/-- Region 1's result array after the region: the graph convolution of the arrays it found. -/
theorem region1 (c : Dev nD) :
    (dat1 V c).arrAt 5 cfg1.N
      = Cert.Spec.comb (F := Ideal) (V c main_v17) (V c main_v4) (V c main_arg5) (V c main_arg6) (V c main_arg7) :=
  (dat1 V c).arrAt_eq_of_cover 5 _ (fun t _ => flushed1 V c t) cover1

end Cert.KernelIdeal.KBlocks

end
-- ==== Proof.PayBn.lean ====
import proofs.«155673_j17626545783593_1_alg».proof.Proof.Spec
import proofs.«155673_j17626545783593_1_alg».proof.Proof.Gen.KernelIdeal.Skeleton
import proofs.«155673_j17626545783593_1_alg».proof.Proof.LibDotRows
import proofs.«155673_j17626545783593_1_alg».proof.Proof.PayRows
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.Pay

open Idealize.ShloMosaic Idealize.ShloMosaic.ValueIdx

/-- Batch normalisation's tile, with the relu: at `(r, q)` of a tile whose row `r` is row `p` of `h`,
    `max (((h (p, q) - μ q) · rsqrt (v q + ε)) · γ q + β q) 0`. The tile's operands arrive in the order tile, variance, mean, γ, β.
    Every operation is entry by entry; the four feature vectors are read through their row broadcasts, the
    reciprocal square root and the two constants are the same extended reals on both sides. -/
theorem bnrelu_at (hb : Vec Ideal Cert.KernelIdeal.S5000x128 .f32) (h : Cert.Spec.Mat Ideal Cert.ReferenceIdeal.S50000x128)
    (v mu gamma beta : Vec Ideal Cert.KernelIdeal.S128 .f32)
    (r : Fin 5000) (p : Fin 50000) (q : Fin 128) (hh : hb (ix2 r q) = h (ix2 p q)) :
    Cert.KernelIdeal.Gen.k2_pay1 (F := Ideal) hb v mu gamma beta (ix2 r q) = Cert.Spec.relu (F := Ideal) (Cert.Spec.bn h mu v gamma beta) (ix2 p q) := by
  unfold Cert.KernelIdeal.Gen.k2_pay1 Cert.Spec.relu Cert.Spec.bn
  simp only [maximumf_apply, addf_apply, mulf_apply, subf_apply, rows_at, rowK_at, zeros_at, shapeCast_self, rsqrt, Host.rsqrt,
    broadcast_apply, broadcastInDim_scalar_apply, constant_apply, Ideal.rsqrt_def, Ideal.hostUnary_rsqrt_def]
  rw [hh]
  rfl

/-- The same without the relu (the last layer). -/
theorem bn_at (hb : Vec Ideal Cert.KernelIdeal.S5000x128 .f32) (h : Cert.Spec.Mat Ideal Cert.ReferenceIdeal.S50000x128)
    (v mu gamma beta : Vec Ideal Cert.KernelIdeal.S128 .f32)
    (r : Fin 5000) (p : Fin 50000) (q : Fin 128) (hh : hb (ix2 r q) = h (ix2 p q)) :
    Cert.KernelIdeal.Gen.k4_pay1 (F := Ideal) hb v mu gamma beta (ix2 r q) = Cert.Spec.bn (F := Ideal) h mu v gamma beta (ix2 p q) := by
  unfold Cert.KernelIdeal.Gen.k4_pay1 Cert.Spec.bn
  simp only [addf_apply, mulf_apply, subf_apply, rows_at, rowK_at, shapeCast_self, rsqrt, Host.rsqrt,
    broadcast_apply, broadcastInDim_scalar_apply, constant_apply, Ideal.rsqrt_def, Ideal.hostUnary_rsqrt_def]
  rw [hh]
  rfl

end Cert.Pay

end
-- ==== Proof.KBlocks2.lean ====
/-
  Region 2 (batch normalisation of the first layer, with the relu), as one whole-array function of what it finds: each of
  the grid's ten points takes 5000 rows of h and the whole mean, variance, γ and β vectors, and writes back 5000 rows; the
  ten write-backs are the ten row blocks of  max (((h − μ) · rsqrt (v + ε)) · γ + β) 0  and cover the result array.
-/
import proofs.«155673_j17626545783593_1_alg».proof.Proof.Gen.KernelIdeal.Frame
import proofs.«155673_j17626545783593_1_alg».proof.Proof.Spec
import proofs.«155673_j17626545783593_1_alg».proof.Proof.PayBn
import Idealize.ShloMosaic.Lib.Pipeline.Value
import Idealize.ShloMosaic.Lib.ValueIdx

set_option maxRecDepth 16384

noncomputable section

namespace Cert.KernelIdeal.KBlocks

open Cert.KernelIdeal Cert.KernelIdeal.Gen Idealize.ShloMosaic Idealize.ShloMosaic.TcCoe Idealize.SL.Sem Idealize.ShloMosaic.ValueIdx
open Idealize.ShloMosaic.Pipeline (Dat)

-- the buffer contents the region finds when it is entered
variable (V : (c : Dev nD) → (b : Ref sig .tc) → Buf (Elt Ideal) ((c : Thread nD τ).loc b))

theorem hz2_2 : (![0, 0] : Fin 2 → Nat) = fun _ => 0 := funext fun a => by fin_cases a <;> rfl
theorem hz1_2 : (![0] : Fin 1 → Nat) = fun _ => 0 := funext fun a => by fin_cases a; rfl

/-- The index maps over the ten points: the h tile and the result tile move down the rows with the point; the four
    feature vectors are taken whole at every point. -/
theorem idx2 : ∀ t : Fin cfg2.N, win2_0.index t (0 : Fin 2) = t.val ∧ win2_0.index t (1 : Fin 2) = 0
    ∧ win2_1.index t (0 : Fin 1) = 0 ∧ win2_2.index t (0 : Fin 1) = 0 ∧ win2_3.index t (0 : Fin 1) = 0 ∧ win2_4.index t (0 : Fin 1) = 0
    ∧ win2_5.index t (0 : Fin 2) = t.val ∧ win2_5.index t (1 : Fin 2) = 0 :=
  (by decide +kernel : ∀ t : Fin grid2.N, _)

/-- Row r of point t's h tile is row 5000·t + r of h. -/
theorem hblk2 (c : Dev nD) (t : Fin cfg2.N) (r : Fin 5000) (k : Fin 128) (p : Fin 50000) (hp : p.val = t.val * 5000 + r.val) :
    (iblk2 V c 0 t : Vec Ideal S5000x128 .f32) (ix2 r k) = (V c main_v18 : S50000x128.Idx → Elt Ideal .f32) (ix2 p k) := by
  obtain ⟨e0, e1, -⟩ := idx2 t
  unfold iblk2
  rw [View.read_apply]
  show V c main_v18 _ = V c main_v18 _
  refine congrArg (V c main_v18) ?_
  funext a
  apply Fin.ext
  match a with
  | ⟨0, _⟩ => show win2_0.index t (0 : Fin 2) * 5000 + 1 * r.val = p.val; omega
  | ⟨1, _⟩ => show win2_0.index t (1 : Fin 2) * 128 + 1 * k.val = k.val; omega

/-- Every point's mean tile is the mean vector. -/
theorem mublk2 (c : Dev nD) (t : Fin cfg2.N) : (iblk2 V c 1 t : Vec Ideal S128 .f32) = V c main_v21 := by
  obtain ⟨-, -, e2, -⟩ := idx2 t
  funext y
  unfold iblk2
  rw [View.read_apply]
  show V c main_v21 _ = V c main_v21 y
  refine congrArg (V c main_v21) ?_
  funext a
  apply Fin.ext
  match a with
  | ⟨0, _⟩ => show win2_1.index t (0 : Fin 1) * 128 + 1 * (y 0).val = (y 0).val; omega

/-- Every point's variance tile is the variance vector. -/
theorem varblk2 (c : Dev nD) (t : Fin cfg2.N) : (iblk2 V c 2 t : Vec Ideal S128 .f32) = V c main_v22 := by
  obtain ⟨-, -, -, e3, -⟩ := idx2 t
  funext y
  unfold iblk2
  rw [View.read_apply]
  show V c main_v22 _ = V c main_v22 y
  refine congrArg (V c main_v22) ?_
  funext a
  apply Fin.ext
  match a with
  | ⟨0, _⟩ => show win2_2.index t (0 : Fin 1) * 128 + 1 * (y 0).val = (y 0).val; omega

/-- Every point's γ tile is γ. -/
theorem gammablk2 (c : Dev nD) (t : Fin cfg2.N) : (iblk2 V c 3 t : Vec Ideal S128 .f32) = V c main_arg11 := by
  obtain ⟨-, -, -, -, e4, -⟩ := idx2 t
  funext y
  unfold iblk2
  rw [View.read_apply]
  show V c main_arg11 _ = V c main_arg11 y
  refine congrArg (V c main_arg11) ?_
  funext a
  apply Fin.ext
  match a with
  | ⟨0, _⟩ => show win2_3.index t (0 : Fin 1) * 128 + 1 * (y 0).val = (y 0).val; omega

/-- Every point's β tile is β. -/
theorem betablk2 (c : Dev nD) (t : Fin cfg2.N) : (iblk2 V c 4 t : Vec Ideal S128 .f32) = V c main_arg12 := by
  obtain ⟨-, -, -, -, -, e5, -⟩ := idx2 t
  funext y
  unfold iblk2
  rw [View.read_apply]
  show V c main_arg12 _ = V c main_arg12 y
  refine congrArg (V c main_arg12) ?_
  funext a
  apply Fin.ext
  match a with
  | ⟨0, _⟩ => show win2_4.index t (0 : Fin 1) * 128 + 1 * (y 0).val = (y 0).val; omega

/-- The stored tile at an entry, over variables: if the row tile is rows tv·5000 + r of h and the other operands are the
    mean, the variance, γ and β, the entry j of the tile is the normalised, rectified h at the entry i that j is sent to. -/
theorem tile2 (h : Cert.Spec.Mat Ideal Cert.ReferenceIdeal.S50000x128) (mu v gamma beta : Vec Ideal S128 .f32)
    (hb : Vec Ideal S5000x128 .f32) (mub vb gammab betab : Vec Ideal S128 .f32)
    (hmu : mub = mu) (hv : vb = v) (hgamma : gammab = gamma) (hbeta : betab = beta) (tv : Nat)
    (hh : ∀ (r : Fin 5000) (k : Fin 128) (p : Fin 50000), p.val = tv * 5000 + r.val → hb (ix2 r k) = h (ix2 p k))
    (j : S5000x128.Idx) (i : S50000x128.Idx) (h0 : (i 0).val = tv * 5000 + (j 0).val) (h1 : (i 1).val = (j 1).val) :
    k2_pay1 (F := Ideal) hb vb mub gammab betab j = Cert.Spec.relu (F := Ideal) (Cert.Spec.bn h mu v gamma beta) i := by
  subst hmu hv hgamma hbeta
  have hj : j = ix2 (⟨(j 0).val, idx2_lt0 j⟩ : Fin 5000) (⟨(j 1).val, idx2_lt1 j⟩ : Fin 128) :=
    funext fun a => by match a with | ⟨0, _⟩ => rfl | ⟨1, _⟩ => rfl
  have hi : i = ix2 (⟨(i 0).val, idx2_lt0 i⟩ : Fin 50000) (⟨(j 1).val, idx2_lt1 j⟩ : Fin 128) :=
    funext fun a => Fin.ext (by match a with | ⟨0, _⟩ => rfl | ⟨1, _⟩ => exact h1)
  exact (congrArg (k2_pay1 (F := Ideal) hb vb mub gammab betab) hj).trans
    ((Cert.Pay.bnrelu_at hb h vb mub gammab betab _ _ _ (hh _ _ _ h0)).trans
      (congrArg (Cert.Spec.relu (F := Ideal) (Cert.Spec.bn h mub vb gammab betab)) hi.symm))

/-- What point t writes back is block t of the normalised, rectified array of the arrays the region finds. -/
theorem flushed2 (c : Dev nD) (t : Fin cfg2.N) :
    (dat2 V c).flushed 5 t
      = ((cfg2.win 5).blk t).view.read (Elt Ideal)
          (Cert.Spec.relu (F := Ideal) (Cert.Spec.bn (V c main_v18) (V c main_v21) (V c main_v22) (V c main_arg11) (V c main_arg12))) := by
  show (cfg2.win 5).cut (grid2.coords t) ((dat2 V c).after 5 t) = _
  rw [after2_5]
  unfold out2_5
  rw [View.canon_unit_zero hz2_2]
  simp only [View.ld_unit_zero (S := S5000x128) hz2_2, View.ld_unit_zero (S := S128) hz1_2]
  obtain ⟨e0, e1, e2, e3, e4, e5, e6, e7⟩ := idx2 t
  funext j
  show k2_pay1 (iblk2 V c 0 t) (iblk2 V c 2 t) (iblk2 V c 1 t) (iblk2 V c 3 t) (iblk2 V c 4 t) j
    = Cert.Spec.relu (F := Ideal) (Cert.Spec.bn (V c main_v18) (V c main_v21) (V c main_v22) (V c main_arg11) (V c main_arg12)) (((cfg2.win 5).blk t).view.emb j)
  refine tile2 _ _ _ _ _ _ _ _ _ _ (mublk2 V c t) (varblk2 V c t) (gammablk2 V c t) (betablk2 V c t) t.val
    (fun r k p hp => hblk2 V c t r k p hp) j _ ?_ ?_
  · show win2_5.index t (0 : Fin 2) * 5000 + 1 * (j 0).val = t.val * 5000 + (j 0).val; omega
  · show win2_5.index t (1 : Fin 2) * 128 + 1 * (j 1).val = (j 1).val; omega

/-- An index of the result array is in point t's block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v23).slice (win2_5.rect t)).set ↔ _
  rw [View.set_slice_whole, Rect.mem_set_unit]
  exact Iff.rfl

/-- Row i₀ lies in the block of point i₀ / 5000: the ten blocks cover the result array. -/
theorem cover2 (i : S50000x128.Idx) : ∃ t : Fin cfg2.N, (cfg2.win 5).flush t = true ∧ i ∈ ((cfg2.win 5).blk t).view.set := by
  have hi0 : (i 0).val < 50000 := idx2_lt0 i
  have hi1 : (i 1).val < 128 := idx2_lt1 i
  have hN : cfg2.N = 10 := N_2
  have ht : (i 0).val / 5000 < cfg2.N := by rw [hN]; omega
  refine ⟨⟨(i 0).val / 5000, ht⟩, flush2_5 _, ?_⟩
  obtain ⟨-, -, -, -, -, -, e6, e7⟩ := idx2 ⟨(i 0).val / 5000, ht⟩
  rw [mem_blk2]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    have e6' : win2_5.index ⟨(i 0).val / 5000, ht⟩ (0 : Fin 2) = (i 0).val / 5000 := e6
    omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    omega

/-- Region 2's result array after the region: the normalised, rectified array of the arrays it found. -/
theorem region2 (c : Dev nD) :
    (dat2 V c).arrAt 5 cfg2.N
      = Cert.Spec.relu (F := Ideal) (Cert.Spec.bn (V c main_v18) (V c main_v21) (V c main_v22) (V c main_arg11) (V c main_arg12)) :=
  (dat2 V c).arrAt_eq_of_cover 5 _ (fun t _ => flushed2 V c t) cover2

end Cert.KernelIdeal.KBlocks

end
-- ==== Proof.KBlocks3.lean ====
/-
  Region 3 (the second graph convolution), as one whole-array function of what it finds: each of the grid's ten points
  takes 5000 rows of the aggregate and the same 5000 rows of h, the whole of W_rel, b_rel and W_root, and writes back 5000
  rows; the ten write-backs are the ten row blocks of  (a · W_relᵀ + b_rel) + h · W_rootᵀ  and cover the result array.
-/
import proofs.«155673_j17626545783593_1_alg».proof.Proof.Gen.KernelIdeal.Frame
import proofs.«155673_j17626545783593_1_alg».proof.Proof.Spec
import proofs.«155673_j17626545783593_1_alg».proof.Proof.PayComb
import Idealize.ShloMosaic.Lib.Pipeline.Value
import Idealize.ShloMosaic.Lib.ValueIdx

set_option maxRecDepth 16384

noncomputable section

namespace Cert.KernelIdeal.KBlocks

open Cert.KernelIdeal Cert.KernelIdeal.Gen Idealize.ShloMosaic Idealize.ShloMosaic.TcCoe Idealize.SL.Sem Idealize.ShloMosaic.ValueIdx
open Idealize.ShloMosaic.Pipeline (Dat)

-- the buffer contents the region finds when it is entered
variable (V : (c : Dev nD) → (b : Ref sig .tc) → Buf (Elt Ideal) ((c : Thread nD τ).loc b))

theorem hz2_3 : (![0, 0] : Fin 2 → Nat) = fun _ => 0 := funext fun a => by fin_cases a <;> rfl
theorem hz1_3 : (![0] : Fin 1 → Nat) = fun _ => 0 := funext fun a => by fin_cases a; rfl

/-- The index maps over the ten points: the two row tiles and the result tile move down the rows with the point; the
    weights and the bias are taken whole at every point. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 ∧ win3_3.index t (0 : Fin 1) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row r of point t's aggregate tile is row 5000·t + r of the aggregate. -/
theorem ablk3 (c : Dev nD) (t : Fin cfg3.N) (r : Fin 5000) (k : Fin 128) (p : Fin 50000) (hp : p.val = t.val * 5000 + r.val) :
    (iblk3 V c 0 t : Vec Ideal S5000x128 .f32) (ix2 r k) = (V c main_v36 : S50000x128.Idx → Elt Ideal .f32) (ix2 p k) := by
  obtain ⟨e0, e1, -⟩ := idx3 t
  unfold iblk3
  rw [View.read_apply]
  show V c main_v36 _ = V c main_v36 _
  refine congrArg (V c main_v36) ?_
  funext a
  apply Fin.ext
  match a with
  | ⟨0, _⟩ => show win3_0.index t (0 : Fin 2) * 5000 + 1 * r.val = p.val; omega
  | ⟨1, _⟩ => show win3_0.index t (1 : Fin 2) * 128 + 1 * k.val = k.val; omega

/-- Row r of point t's h tile is row 5000·t + r of h. -/
theorem hblk3 (c : Dev nD) (t : Fin cfg3.N) (r : Fin 5000) (k : Fin 128) (p : Fin 50000) (hp : p.val = t.val * 5000 + r.val) :
    (iblk3 V c 1 t : Vec Ideal S5000x128 .f32) (ix2 r k) = (V c main_v23 : S50000x128.Idx → Elt Ideal .f32) (ix2 p k) := by
  obtain ⟨-, -, e2, e3, -⟩ := idx3 t
  unfold iblk3
  rw [View.read_apply]
  show V c main_v23 _ = V c main_v23 _
  refine congrArg (V c main_v23) ?_
  funext a
  apply Fin.ext
  match a with
  | ⟨0, _⟩ => show win3_1.index t (0 : Fin 2) * 5000 + 1 * r.val = p.val; omega
  | ⟨1, _⟩ => show win3_1.index t (1 : Fin 2) * 128 + 1 * k.val = k.val; omega

/-- Every point's W_rel tile is W_rel. -/
theorem wrelblk3 (c : Dev nD) (t : Fin cfg3.N) : (iblk3 V c 2 t : Vec Ideal S128x128 .f32) = V c main_arg8 := by
  obtain ⟨-, -, -, -, e4, e5, -⟩ := idx3 t
  funext y
  unfold iblk3
  rw [View.read_apply]
  show V c main_arg8 _ = V c main_arg8 y
  refine congrArg (V c main_arg8) ?_
  funext a
  apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- Every point's b_rel tile is b_rel. -/
theorem brelblk3 (c : Dev nD) (t : Fin cfg3.N) : (iblk3 V c 3 t : Vec Ideal S128 .f32) = V c main_arg9 := by
  obtain ⟨-, -, -, -, -, -, e6, -⟩ := idx3 t
  funext y
  unfold iblk3
  rw [View.read_apply]
  show V c main_arg9 _ = V c main_arg9 y
  refine congrArg (V c main_arg9) ?_
  funext a
  apply Fin.ext
  match a with
  | ⟨0, _⟩ => show win3_3.index t (0 : Fin 1) * 128 + 1 * (y 0).val = (y 0).val; omega

/-- Every point's W_root tile is W_root. -/
theorem wrootblk3 (c : Dev nD) (t : Fin cfg3.N) : (iblk3 V c 4 t : Vec Ideal S128x128 .f32) = V c main_arg10 := by
  obtain ⟨-, -, -, -, -, -, -, e7, e8, -⟩ := idx3 t
  funext y
  unfold iblk3
  rw [View.read_apply]
  show V c main_arg10 _ = V c main_arg10 y
  refine congrArg (V c main_arg10) ?_
  funext a
  apply Fin.ext
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- The stored tile at an entry, over variables: if the two row tiles are rows tv·5000 + r of a and of h and the other
    operands are W_rel, W_root and b_rel, the entry j of the tile is the graph convolution of the whole arrays at the
    entry i that j is sent to. -/
theorem tile3 (a h : Cert.Spec.Mat Ideal Cert.ReferenceIdeal.S50000x128) (Wrel Wroot : Vec Ideal S128x128 .f32) (brel : Vec Ideal S128 .f32)
    (ab hb : Vec Ideal S5000x128 .f32) (Wrelb Wrootb : Vec Ideal S128x128 .f32) (brelb : Vec Ideal S128 .f32)
    (hWrel : Wrelb = Wrel) (hWroot : Wrootb = Wroot) (hbrel : brelb = brel) (tv : Nat)
    (ha : ∀ (r : Fin 5000) (k : Fin 128) (p : Fin 50000), p.val = tv * 5000 + r.val → ab (ix2 r k) = a (ix2 p k))
    (hh : ∀ (r : Fin 5000) (k : Fin 128) (p : Fin 50000), p.val = tv * 5000 + r.val → hb (ix2 r k) = h (ix2 p k))
    (j : S5000x128.Idx) (i : S50000x128.Idx) (h0 : (i 0).val = tv * 5000 + (j 0).val) (h1 : (i 1).val = (j 1).val) :
    k3_pay1 (F := Ideal) ab hb Wrelb Wrootb brelb j = Cert.Spec.comb (F := Ideal) a h Wrel brel Wroot i := by
  subst hWrel hWroot hbrel
  have hj : j = ix2 (⟨(j 0).val, idx2_lt0 j⟩ : Fin 5000) (⟨(j 1).val, idx2_lt1 j⟩ : Fin 128) :=
    funext fun a => by match a with | ⟨0, _⟩ => rfl | ⟨1, _⟩ => rfl
  have hi : i = ix2 (⟨(i 0).val, idx2_lt0 i⟩ : Fin 50000) (⟨(j 1).val, idx2_lt1 j⟩ : Fin 128) :=
    funext fun a => Fin.ext (by match a with | ⟨0, _⟩ => rfl | ⟨1, _⟩ => exact h1)
  exact (congrArg (k3_pay1 (F := Ideal) ab hb Wrelb Wrootb brelb) hj).trans
    ((Cert.Pay.comb3_at ab hb a h Wrelb Wrootb brelb _ _ _ (fun k => ha _ k _ h0) (fun k => hh _ k _ h0)).trans
      (congrArg (Cert.Spec.comb (F := Ideal) a h Wrelb brelb Wrootb) hi.symm))

/-- What point t writes back is block t of the graph convolution of the arrays the region finds. -/
theorem flushed3 (c : Dev nD) (t : Fin cfg3.N) :
    (dat3 V c).flushed 5 t
      = ((cfg3.win 5).blk t).view.read (Elt Ideal)
          (Cert.Spec.comb (F := Ideal) (V c main_v36) (V c main_v23) (V c main_arg8) (V c main_arg9) (V c main_arg10)) := by
  show (cfg3.win 5).cut (grid3.coords t) ((dat3 V c).after 5 t) = _
  rw [after3_5]
  unfold out3_5
  rw [View.canon_unit_zero hz2_3]
  simp only [View.ld_unit_zero (S := S5000x128) hz2_3, View.ld_unit_zero (S := S128x128) hz2_3, View.ld_unit_zero (S := S128) hz1_3]
  obtain ⟨e0, e1, e2, e3, e4, e5, e6, e7, e8, e9, e10⟩ := idx3 t
  funext j
  show k3_pay1 (iblk3 V c 0 t) (iblk3 V c 1 t) (iblk3 V c 2 t) (iblk3 V c 4 t) (iblk3 V c 3 t) j
    = Cert.Spec.comb (F := Ideal) (V c main_v36) (V c main_v23) (V c main_arg8) (V c main_arg9) (V c main_arg10) (((cfg3.win 5).blk t).view.emb j)
  refine tile3 _ _ _ _ _ _ _ _ _ _ (wrelblk3 V c t) (wrootblk3 V c t) (brelblk3 V c t) t.val
    (fun r k p hp => ablk3 V c t r k p hp) (fun r k p hp => hblk3 V c t r k p hp) j _ ?_ ?_
  · show win3_5.index t (0 : Fin 2) * 5000 + 1 * (j 0).val = t.val * 5000 + (j 0).val; omega
  · show win3_5.index t (1 : Fin 2) * 128 + 1 * (j 1).val = (j 1).val; omega

/-- An index of the result array is in point t's block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v37).slice (win3_5.rect t)).set ↔ _
  rw [View.set_slice_whole, Rect.mem_set_unit]
  exact Iff.rfl

/-- Row i₀ lies in the block of point i₀ / 5000: the ten blocks cover the result array. -/
theorem cover3 (i : S50000x128.Idx) : ∃ t : Fin cfg3.N, (cfg3.win 5).flush t = true ∧ i ∈ ((cfg3.win 5).blk t).view.set := by
  have hi0 : (i 0).val < 50000 := idx2_lt0 i
  have hi1 : (i 1).val < 128 := idx2_lt1 i
  have hN : cfg3.N = 10 := N_3
  have ht : (i 0).val / 5000 < cfg3.N := by rw [hN]; omega
  refine ⟨⟨(i 0).val / 5000, ht⟩, flush3_5 _, ?_⟩
  obtain ⟨-, -, -, -, -, -, -, -, -, e9, e10⟩ := idx3 ⟨(i 0).val / 5000, ht⟩
  rw [mem_blk3]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    have e9' : win3_5.index ⟨(i 0).val / 5000, ht⟩ (0 : Fin 2) = (i 0).val / 5000 := e9
    omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    omega

/-- Region 3's result array after the region: the graph convolution of the arrays it found. -/
theorem region3 (c : Dev nD) :
    (dat3 V c).arrAt 5 cfg3.N
      = Cert.Spec.comb (F := Ideal) (V c main_v36) (V c main_v23) (V c main_arg8) (V c main_arg9) (V c main_arg10) :=
  (dat3 V c).arrAt_eq_of_cover 5 _ (fun t _ => flushed3 V c t) cover3

end Cert.KernelIdeal.KBlocks

end
-- ==== Proof.KBlocks4.lean ====
/-
  Region 4 (batch normalisation of the second layer, no relu), as one whole-array function of what it finds: each of
  the grid's ten points takes 5000 rows of h and the whole mean, variance, γ and β vectors, and writes back 5000 rows; the
  ten write-backs are the ten row blocks of  ((h − μ) · rsqrt (v + ε)) · γ + β  and cover the result array.
-/
import proofs.«155673_j17626545783593_1_alg».proof.Proof.Gen.KernelIdeal.Frame
import proofs.«155673_j17626545783593_1_alg».proof.Proof.Spec
import proofs.«155673_j17626545783593_1_alg».proof.Proof.PayBn
import Idealize.ShloMosaic.Lib.Pipeline.Value
import Idealize.ShloMosaic.Lib.ValueIdx

set_option maxRecDepth 16384

noncomputable section

namespace Cert.KernelIdeal.KBlocks

open Cert.KernelIdeal Cert.KernelIdeal.Gen Idealize.ShloMosaic Idealize.ShloMosaic.TcCoe Idealize.SL.Sem Idealize.ShloMosaic.ValueIdx
open Idealize.ShloMosaic.Pipeline (Dat)

-- the buffer contents the region finds when it is entered
variable (V : (c : Dev nD) → (b : Ref sig .tc) → Buf (Elt Ideal) ((c : Thread nD τ).loc b))

theorem hz2_4 : (![0, 0] : Fin 2 → Nat) = fun _ => 0 := funext fun a => by fin_cases a <;> rfl
theorem hz1_4 : (![0] : Fin 1 → Nat) = fun _ => 0 := funext fun a => by fin_cases a; rfl

/-- The index maps over the ten points: the h tile and the result tile move down the rows with the point; the four
    feature vectors are taken whole at every point. -/
theorem idx4 : ∀ t : Fin cfg4.N, win4_0.index t (0 : Fin 2) = t.val ∧ win4_0.index t (1 : Fin 2) = 0
    ∧ win4_1.index t (0 : Fin 1) = 0 ∧ win4_2.index t (0 : Fin 1) = 0 ∧ win4_3.index t (0 : Fin 1) = 0 ∧ win4_4.index t (0 : Fin 1) = 0
    ∧ win4_5.index t (0 : Fin 2) = t.val ∧ win4_5.index t (1 : Fin 2) = 0 :=
  (by decide +kernel : ∀ t : Fin grid4.N, _)

/-- Row r of point t's h tile is row 5000·t + r of h. -/
theorem hblk4 (c : Dev nD) (t : Fin cfg4.N) (r : Fin 5000) (k : Fin 128) (p : Fin 50000) (hp : p.val = t.val * 5000 + r.val) :
    (iblk4 V c 0 t : Vec Ideal S5000x128 .f32) (ix2 r k) = (V c main_v37 : S50000x128.Idx → Elt Ideal .f32) (ix2 p k) := by
  obtain ⟨e0, e1, -⟩ := idx4 t
  unfold iblk4
  rw [View.read_apply]
  show V c main_v37 _ = V c main_v37 _
  refine congrArg (V c main_v37) ?_
  funext a
  apply Fin.ext
  match a with
  | ⟨0, _⟩ => show win4_0.index t (0 : Fin 2) * 5000 + 1 * r.val = p.val; omega
  | ⟨1, _⟩ => show win4_0.index t (1 : Fin 2) * 128 + 1 * k.val = k.val; omega

/-- Every point's mean tile is the mean vector. -/
theorem mublk4 (c : Dev nD) (t : Fin cfg4.N) : (iblk4 V c 1 t : Vec Ideal S128 .f32) = V c main_v40 := by
  obtain ⟨-, -, e2, -⟩ := idx4 t
  funext y
  unfold iblk4
  rw [View.read_apply]
  show V c main_v40 _ = V c main_v40 y
  refine congrArg (V c main_v40) ?_
  funext a
  apply Fin.ext
  match a with
  | ⟨0, _⟩ => show win4_1.index t (0 : Fin 1) * 128 + 1 * (y 0).val = (y 0).val; omega

/-- Every point's variance tile is the variance vector. -/
theorem varblk4 (c : Dev nD) (t : Fin cfg4.N) : (iblk4 V c 2 t : Vec Ideal S128 .f32) = V c main_v41 := by
  obtain ⟨-, -, -, e3, -⟩ := idx4 t
  funext y
  unfold iblk4
  rw [View.read_apply]
  show V c main_v41 _ = V c main_v41 y
  refine congrArg (V c main_v41) ?_
  funext a
  apply Fin.ext
  match a with
  | ⟨0, _⟩ => show win4_2.index t (0 : Fin 1) * 128 + 1 * (y 0).val = (y 0).val; omega

/-- Every point's γ tile is γ. -/
theorem gammablk4 (c : Dev nD) (t : Fin cfg4.N) : (iblk4 V c 3 t : Vec Ideal S128 .f32) = V c main_arg11 := by
  obtain ⟨-, -, -, -, e4, -⟩ := idx4 t
  funext y
  unfold iblk4
  rw [View.read_apply]
  show V c main_arg11 _ = V c main_arg11 y
  refine congrArg (V c main_arg11) ?_
  funext a
  apply Fin.ext
  match a with
  | ⟨0, _⟩ => show win4_3.index t (0 : Fin 1) * 128 + 1 * (y 0).val = (y 0).val; omega

/-- Every point's β tile is β. -/
theorem betablk4 (c : Dev nD) (t : Fin cfg4.N) : (iblk4 V c 4 t : Vec Ideal S128 .f32) = V c main_arg12 := by
  obtain ⟨-, -, -, -, -, e5, -⟩ := idx4 t
  funext y
  unfold iblk4
  rw [View.read_apply]
  show V c main_arg12 _ = V c main_arg12 y
  refine congrArg (V c main_arg12) ?_
  funext a
  apply Fin.ext
  match a with
  | ⟨0, _⟩ => show win4_4.index t (0 : Fin 1) * 128 + 1 * (y 0).val = (y 0).val; omega

/-- The stored tile at an entry, over variables: if the row tile is rows tv·5000 + r of h and the other operands are the
    mean, the variance, γ and β, the entry j of the tile is the normalised h at the entry i that j is sent to. -/
theorem tile4 (h : Cert.Spec.Mat Ideal Cert.ReferenceIdeal.S50000x128) (mu v gamma beta : Vec Ideal S128 .f32)
    (hb : Vec Ideal S5000x128 .f32) (mub vb gammab betab : Vec Ideal S128 .f32)
    (hmu : mub = mu) (hv : vb = v) (hgamma : gammab = gamma) (hbeta : betab = beta) (tv : Nat)
    (hh : ∀ (r : Fin 5000) (k : Fin 128) (p : Fin 50000), p.val = tv * 5000 + r.val → hb (ix2 r k) = h (ix2 p k))
    (j : S5000x128.Idx) (i : S50000x128.Idx) (h0 : (i 0).val = tv * 5000 + (j 0).val) (h1 : (i 1).val = (j 1).val) :
    k4_pay1 (F := Ideal) hb vb mub gammab betab j = Cert.Spec.bn (F := Ideal) h mu v gamma beta i := by
  subst hmu hv hgamma hbeta
  have hj : j = ix2 (⟨(j 0).val, idx2_lt0 j⟩ : Fin 5000) (⟨(j 1).val, idx2_lt1 j⟩ : Fin 128) :=
    funext fun a => by match a with | ⟨0, _⟩ => rfl | ⟨1, _⟩ => rfl
  have hi : i = ix2 (⟨(i 0).val, idx2_lt0 i⟩ : Fin 50000) (⟨(j 1).val, idx2_lt1 j⟩ : Fin 128) :=
    funext fun a => Fin.ext (by match a with | ⟨0, _⟩ => rfl | ⟨1, _⟩ => exact h1)
  exact (congrArg (k4_pay1 (F := Ideal) hb vb mub gammab betab) hj).trans
    ((Cert.Pay.bn_at hb h vb mub gammab betab _ _ _ (hh _ _ _ h0)).trans
      (congrArg (Cert.Spec.bn (F := Ideal) h mub vb gammab betab) hi.symm))

/-- What point t writes back is block t of the normalised array of the arrays the region finds. -/
theorem flushed4 (c : Dev nD) (t : Fin cfg4.N) :
    (dat4 V c).flushed 5 t
      = ((cfg4.win 5).blk t).view.read (Elt Ideal)
          (Cert.Spec.bn (F := Ideal) (V c main_v37) (V c main_v40) (V c main_v41) (V c main_arg11) (V c main_arg12)) := by
  show (cfg4.win 5).cut (grid4.coords t) ((dat4 V c).after 5 t) = _
  rw [after4_5]
  unfold out4_5
  rw [View.canon_unit_zero hz2_4]
  simp only [View.ld_unit_zero (S := S5000x128) hz2_4, View.ld_unit_zero (S := S128) hz1_4]
  obtain ⟨e0, e1, e2, e3, e4, e5, e6, e7⟩ := idx4 t
  funext j
  show k4_pay1 (iblk4 V c 0 t) (iblk4 V c 2 t) (iblk4 V c 1 t) (iblk4 V c 3 t) (iblk4 V c 4 t) j
    = Cert.Spec.bn (F := Ideal) (V c main_v37) (V c main_v40) (V c main_v41) (V c main_arg11) (V c main_arg12) (((cfg4.win 5).blk t).view.emb j)
  refine tile4 _ _ _ _ _ _ _ _ _ _ (mublk4 V c t) (varblk4 V c t) (gammablk4 V c t) (betablk4 V c t) t.val
    (fun r k p hp => hblk4 V c t r k p hp) j _ ?_ ?_
  · show win4_5.index t (0 : Fin 2) * 5000 + 1 * (j 0).val = t.val * 5000 + (j 0).val; omega
  · show win4_5.index t (1 : Fin 2) * 128 + 1 * (j 1).val = (j 1).val; omega

/-- An index of the result array is in point t's block iff each coordinate is in the block's range on its axis. -/
theorem mem_blk4 (t : Fin cfg4.N) (i : S50000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v42).slice (win4_5.rect t)).set ↔ _
  rw [View.set_slice_whole, Rect.mem_set_unit]
  exact Iff.rfl

/-- Row i₀ lies in the block of point i₀ / 5000: the ten blocks cover the result array. -/
theorem cover4 (i : S50000x128.Idx) : ∃ t : Fin cfg4.N, (cfg4.win 5).flush t = true ∧ i ∈ ((cfg4.win 5).blk t).view.set := by
  have hi0 : (i 0).val < 50000 := idx2_lt0 i
  have hi1 : (i 1).val < 128 := idx2_lt1 i
  have hN : cfg4.N = 10 := N_4
  have ht : (i 0).val / 5000 < cfg4.N := by rw [hN]; omega
  refine ⟨⟨(i 0).val / 5000, ht⟩, flush4_5 _, ?_⟩
  obtain ⟨-, -, -, -, -, -, e6, e7⟩ := idx4 ⟨(i 0).val / 5000, ht⟩
  rw [mem_blk4]
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    have e6' : win4_5.index ⟨(i 0).val / 5000, ht⟩ (0 : Fin 2) = (i 0).val / 5000 := e6
    omega
  | ⟨1, _⟩ =>
    show win4_5.index ⟨(i 0).val / 5000, ht⟩ (1 : Fin 2) * 128 ≤ (i 1).val
      ∧ (i 1).val < win4_5.index ⟨(i 0).val / 5000, ht⟩ (1 : Fin 2) * 128 + 128
    omega

/-- Region 4's result array after the region: the normalised array of the arrays it found. -/
theorem region4 (c : Dev nD) :
    (dat4 V c).arrAt 5 cfg4.N
      = Cert.Spec.bn (F := Ideal) (V c main_v37) (V c main_v40) (V c main_v41) (V c main_arg11) (V c main_arg12) :=
  (dat4 V c).arrAt_eq_of_cover 5 _ (fun t _ => flushed4 V c t) cover4

end Cert.KernelIdeal.KBlocks

end
-- ==== Proof.KValue.lean ====
/-
  The value of the idealized kernel's result array. The program is twelve segments — host operations, then a tiled region,
  five times over — and the fold through it has thirteen boundaries W0 … W12. At each boundary the buffers still needed
  later are named: the argument arrays (never written), the edge list's two rows, and the network's intermediate arrays
      h0 = the input layer, g1 = its aggregate, h1 = the first convolution, h2 = its normalisation with the relu,
      g2 = the aggregate of h2, h3 = the second convolution, and the means and variances of h1 and h3.
  A stretch of host operations carries a buffer it does not write, or computes the stage it spells; a region replaces
  its result array by its stage of what it found and leaves the rest. The last boundary's result buffer is the network.
-/
import proofs.«155673_j17626545783593_1_alg».proof.Proof.Gen.KernelIdeal.Frame
import proofs.«155673_j17626545783593_1_alg».proof.Proof.Spec
import proofs.«155673_j17626545783593_1_alg».proof.Proof.KKeepA
import proofs.«155673_j17626545783593_1_alg».proof.Proof.KKeepB
import proofs.«155673_j17626545783593_1_alg».proof.Proof.KHost
import proofs.«155673_j17626545783593_1_alg».proof.Proof.KBlocks0
import proofs.«155673_j17626545783593_1_alg».proof.Proof.KBlocks1
import proofs.«155673_j17626545783593_1_alg».proof.Proof.KBlocks2
import proofs.«155673_j17626545783593_1_alg».proof.Proof.KBlocks3
import proofs.«155673_j17626545783593_1_alg».proof.Proof.KBlocks4

set_option maxRecDepth 16384

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## The network's intermediate arrays, as functions of the launch memory -/

/-- The edges' sources and destinations. -/
abbrev xs : Cert.Spec.IMat Ideal Cert.ReferenceIdeal.S800000 := Cert.Spec.srcOf (m ((c : Thread nD τ).loc main_arg1))
abbrev xd : Cert.Spec.IMat Ideal Cert.ReferenceIdeal.S800000 := Cert.Spec.dstOf (m ((c : Thread nD τ).loc main_arg1))
/-- The input layer. -/
abbrev h0 : Cert.Spec.Mat Ideal Cert.ReferenceIdeal.S50000x128 := Cert.Spec.lin0 (m ((c : Thread nD τ).loc main_arg0)) (m ((c : Thread nD τ).loc main_arg3)) (m ((c : Thread nD τ).loc main_arg4))
/-- Its aggregate along the edges, and the first graph convolution. -/
abbrev g1 : Cert.Spec.Mat Ideal Cert.ReferenceIdeal.S50000x128 := Cert.Spec.agg (h0 m c) (xs m c) (xd m c) (m ((c : Thread nD τ).loc main_arg2))
abbrev h1 : Cert.Spec.Mat Ideal Cert.ReferenceIdeal.S50000x128 := Cert.Spec.comb (g1 m c) (h0 m c) (m ((c : Thread nD τ).loc main_arg5)) (m ((c : Thread nD τ).loc main_arg6)) (m ((c : Thread nD τ).loc main_arg7))
/-- Its batch normalisation, rectified. -/
abbrev h2 : Cert.Spec.Mat Ideal Cert.ReferenceIdeal.S50000x128 :=
  Cert.Spec.relu (Cert.Spec.bn (h1 m c) (Cert.Spec.mean (h1 m c)) (Cert.Spec.var (h1 m c)) (m ((c : Thread nD τ).loc main_arg11)) (m ((c : Thread nD τ).loc main_arg12)))
/-- The second layer's aggregate and graph convolution. -/
abbrev g2 : Cert.Spec.Mat Ideal Cert.ReferenceIdeal.S50000x128 := Cert.Spec.agg (h2 m c) (xs m c) (xd m c) (m ((c : Thread nD τ).loc main_arg2))
abbrev h3 : Cert.Spec.Mat Ideal Cert.ReferenceIdeal.S50000x128 := Cert.Spec.comb (g2 m c) (h2 m c) (m ((c : Thread nD τ).loc main_arg8)) (m ((c : Thread nD τ).loc main_arg9)) (m ((c : Thread nD τ).loc main_arg10))

/-! ## Boundary 1: after the edge list is split -/

theorem W1_arg0 : W1 m ρ c (Proc.devRef .tc main_arg0) = m ((c : Thread nD τ).loc main_arg0) :=
  KKeep.keep0_arg0 (W0 m ρ c)
theorem W1_arg2 : W1 m ρ c (Proc.devRef .tc main_arg2) = m ((c : Thread nD τ).loc main_arg2) :=
  KKeep.keep0_arg2 (W0 m ρ c)
theorem W1_arg3 : W1 m ρ c (Proc.devRef .tc main_arg3) = m ((c : Thread nD τ).loc main_arg3) :=
  KKeep.keep0_arg3 (W0 m ρ c)
theorem W1_arg4 : W1 m ρ c (Proc.devRef .tc main_arg4) = m ((c : Thread nD τ).loc main_arg4) :=
  KKeep.keep0_arg4 (W0 m ρ c)
theorem W1_arg5 : W1 m ρ c (Proc.devRef .tc main_arg5) = m ((c : Thread nD τ).loc main_arg5) :=
  KKeep.keep0_arg5 (W0 m ρ c)
theorem W1_arg6 : W1 m ρ c (Proc.devRef .tc main_arg6) = m ((c : Thread nD τ).loc main_arg6) :=
  KKeep.keep0_arg6 (W0 m ρ c)
theorem W1_arg7 : W1 m ρ c (Proc.devRef .tc main_arg7) = m ((c : Thread nD τ).loc main_arg7) :=
  KKeep.keep0_arg7 (W0 m ρ c)
theorem W1_arg8 : W1 m ρ c (Proc.devRef .tc main_arg8) = m ((c : Thread nD τ).loc main_arg8) :=
  KKeep.keep0_arg8 (W0 m ρ c)
theorem W1_arg9 : W1 m ρ c (Proc.devRef .tc main_arg9) = m ((c : Thread nD τ).loc main_arg9) :=
  KKeep.keep0_arg9 (W0 m ρ c)
theorem W1_arg10 : W1 m ρ c (Proc.devRef .tc main_arg10) = m ((c : Thread nD τ).loc main_arg10) :=
  KKeep.keep0_arg10 (W0 m ρ c)
theorem W1_arg11 : W1 m ρ c (Proc.devRef .tc main_arg11) = m ((c : Thread nD τ).loc main_arg11) :=
  KKeep.keep0_arg11 (W0 m ρ c)
theorem W1_arg12 : W1 m ρ c (Proc.devRef .tc main_arg12) = m ((c : Thread nD τ).loc main_arg12) :=
  KKeep.keep0_arg12 (W0 m ρ c)
theorem W1_v1 : W1 m ρ c (Proc.devRef .tc main_v1) = xs m c :=
  KHost.src_of (W0 m ρ c)
theorem W1_v3 : W1 m ρ c (Proc.devRef .tc main_v3) = xd m c :=
  KHost.dst_of (W0 m ρ c)

/-! ## Boundary 2: after region 0, the input layer -/

theorem W2_v4 : W2 m ρ c (Proc.devRef .tc main_v4) = h0 m c :=
  (W2_arr m ρ c 3).trans ((KBlocks.region0 (V1 m ρ) c).trans (by
    show Cert.Spec.lin0 (F := Ideal) (W1 m ρ c (Proc.devRef .tc main_arg0)) (W1 m ρ c (Proc.devRef .tc main_arg3)) (W1 m ρ c (Proc.devRef .tc main_arg4)) = _
    rw [W1_arg0 m ρ c, W1_arg3 m ρ c, W1_arg4 m ρ c]))
theorem W2_v1 : W2 m ρ c (Proc.devRef .tc main_v1) = xs m c :=
  (W2_of_ne m ρ c main_v1 (by decide)).trans (W1_v1 m ρ c)
theorem W2_v3 : W2 m ρ c (Proc.devRef .tc main_v3) = xd m c :=
  (W2_of_ne m ρ c main_v3 (by decide)).trans (W1_v3 m ρ c)
theorem W2_arg2 : W2 m ρ c (Proc.devRef .tc main_arg2) = m ((c : Thread nD τ).loc main_arg2) :=
  (W2_of_ne m ρ c main_arg2 (by decide)).trans (W1_arg2 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)

/-! ## Boundary 3: after the first aggregation -/

theorem W3_v17 : W3 m ρ c (Proc.devRef .tc main_v17) = g1 m c :=
  (KHost.agg1 (W2 m ρ c)).trans (by rw [W2_v4 m ρ c, W2_v1 m ρ c, W2_v3 m ρ c, W2_arg2 m ρ c])
theorem W3_v4 : W3 m ρ c (Proc.devRef .tc main_v4) = h0 m c :=
  (KKeep.keep1_v4 (W2 m ρ c)).trans (W2_v4 m ρ c)
theorem W3_v1 : W3 m ρ c (Proc.devRef .tc main_v1) = xs m c :=
  (KKeep.keep1_v1 (W2 m ρ c)).trans (W2_v1 m ρ c)
theorem W3_v3 : W3 m ρ c (Proc.devRef .tc main_v3) = xd m c :=
  (KKeep.keep1_v3 (W2 m ρ c)).trans (W2_v3 m ρ c)
theorem W3_arg2 : W3 m ρ c (Proc.devRef .tc main_arg2) = m ((c : Thread nD τ).loc main_arg2) :=
  (KKeep.keep1_arg2 (W2 m ρ c)).trans (W2_arg2 m ρ c)
theorem W3_arg5 : W3 m ρ c (Proc.devRef .tc main_arg5) = m ((c : Thread nD τ).loc main_arg5) :=
  (KKeep.keep1_arg5 (W2 m ρ c)).trans (W2_arg5 m ρ c)
theorem W3_arg6 : W3 m ρ c (Proc.devRef .tc main_arg6) = m ((c : Thread nD τ).loc main_arg6) :=
  (KKeep.keep1_arg6 (W2 m ρ c)).trans (W2_arg6 m ρ c)
theorem W3_arg7 : W3 m ρ c (Proc.devRef .tc main_arg7) = m ((c : Thread nD τ).loc main_arg7) :=
  (KKeep.keep1_arg7 (W2 m ρ c)).trans (W2_arg7 m ρ c)
theorem W3_arg8 : W3 m ρ c (Proc.devRef .tc main_arg8) = m ((c : Thread nD τ).loc main_arg8) :=
  (KKeep.keep1_arg8 (W2 m ρ c)).trans (W2_arg8 m ρ c)
theorem W3_arg9 : W3 m ρ c (Proc.devRef .tc main_arg9) = m ((c : Thread nD τ).loc main_arg9) :=
  (KKeep.keep1_arg9 (W2 m ρ c)).trans (W2_arg9 m ρ c)
theorem W3_arg10 : W3 m ρ c (Proc.devRef .tc main_arg10) = m ((c : Thread nD τ).loc main_arg10) :=
  (KKeep.keep1_arg10 (W2 m ρ c)).trans (W2_arg10 m ρ c)
theorem W3_arg11 : W3 m ρ c (Proc.devRef .tc main_arg11) = m ((c : Thread nD τ).loc main_arg11) :=
  (KKeep.keep1_arg11 (W2 m ρ c)).trans (W2_arg11 m ρ c)
theorem W3_arg12 : W3 m ρ c (Proc.devRef .tc main_arg12) = m ((c : Thread nD τ).loc main_arg12) :=
  (KKeep.keep1_arg12 (W2 m ρ c)).trans (W2_arg12 m ρ c)

/-! ## Boundary 4: after region 1, the first graph convolution -/

theorem W4_v18 : W4 m ρ c (Proc.devRef .tc main_v18) = h1 m c :=
  (W4_arr m ρ c 5).trans ((KBlocks.region1 (V3 m ρ) c).trans (by
    show Cert.Spec.comb (F := Ideal) (W3 m ρ c (Proc.devRef .tc main_v17)) (W3 m ρ c (Proc.devRef .tc main_v4)) (W3 m ρ c (Proc.devRef .tc main_arg5)) (W3 m ρ c (Proc.devRef .tc main_arg6)) (W3 m ρ c (Proc.devRef .tc main_arg7)) = _
    rw [W3_v17 m ρ c, W3_v4 m ρ c, W3_arg5 m ρ c, W3_arg6 m ρ c, W3_arg7 m ρ c]))
theorem W4_v1 : W4 m ρ c (Proc.devRef .tc main_v1) = xs m c :=
  (W4_of_ne m ρ c main_v1 (by decide)).trans (W3_v1 m ρ c)
theorem W4_v3 : W4 m ρ c (Proc.devRef .tc main_v3) = xd m c :=
  (W4_of_ne m ρ c main_v3 (by decide)).trans (W3_v3 m ρ c)
theorem W4_arg2 : W4 m ρ c (Proc.devRef .tc main_arg2) = m ((c : Thread nD τ).loc main_arg2) :=
  (W4_of_ne m ρ c main_arg2 (by decide)).trans (W3_arg2 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)

/-! ## Boundaries 5 and 6: after the mean and after the variance of the first convolution -/

theorem W5_v21 : W5 m ρ c (Proc.devRef .tc main_v21) = Cert.Spec.mean (h1 m c) :=
  (KHost.mean1 (W4 m ρ c)).trans (by rw [W4_v18 m ρ c])
theorem W5_c_3 : W5 m ρ c (Proc.devRef .tc main_c_3) = constantI S_ 32 0#32 :=
  KHost.zero1 (W4 m ρ c)
theorem W5_v18 : W5 m ρ c (Proc.devRef .tc main_v18) = h1 m c :=
  (KKeep.keep2_v18 (W4 m ρ c)).trans (W4_v18 m ρ c)
theorem W5_v1 : W5 m ρ c (Proc.devRef .tc main_v1) = xs m c :=
  (KKeep.keep2_v1 (W4 m ρ c)).trans (W4_v1 m ρ c)
theorem W5_v3 : W5 m ρ c (Proc.devRef .tc main_v3) = xd m c :=
  (KKeep.keep2_v3 (W4 m ρ c)).trans (W4_v3 m ρ c)
theorem W5_arg2 : W5 m ρ c (Proc.devRef .tc main_arg2) = m ((c : Thread nD τ).loc main_arg2) :=
  (KKeep.keep2_arg2 (W4 m ρ c)).trans (W4_arg2 m ρ c)
theorem W5_arg8 : W5 m ρ c (Proc.devRef .tc main_arg8) = m ((c : Thread nD τ).loc main_arg8) :=
  (KKeep.keep2_arg8 (W4 m ρ c)).trans (W4_arg8 m ρ c)
theorem W5_arg9 : W5 m ρ c (Proc.devRef .tc main_arg9) = m ((c : Thread nD τ).loc main_arg9) :=
  (KKeep.keep2_arg9 (W4 m ρ c)).trans (W4_arg9 m ρ c)
theorem W5_arg10 : W5 m ρ c (Proc.devRef .tc main_arg10) = m ((c : Thread nD τ).loc main_arg10) :=
  (KKeep.keep2_arg10 (W4 m ρ c)).trans (W4_arg10 m ρ c)
theorem W5_arg11 : W5 m ρ c (Proc.devRef .tc main_arg11) = m ((c : Thread nD τ).loc main_arg11) :=
  (KKeep.keep2_arg11 (W4 m ρ c)).trans (W4_arg11 m ρ c)
theorem W5_arg12 : W5 m ρ c (Proc.devRef .tc main_arg12) = m ((c : Thread nD τ).loc main_arg12) :=
  (KKeep.keep2_arg12 (W4 m ρ c)).trans (W4_arg12 m ρ c)
theorem W6_v22 : W6 m ρ c (Proc.devRef .tc main_v22) = Cert.Spec.var (h1 m c) :=
  (KHost.var1 (W5 m ρ c) (W5_c_3 m ρ c)).trans (by rw [W5_v18 m ρ c])
theorem W6_v21 : W6 m ρ c (Proc.devRef .tc main_v21) = Cert.Spec.mean (h1 m c) :=
  (KKeep.keep2_1_v21 (W5 m ρ c)).trans (W5_v21 m ρ c)
theorem W6_v18 : W6 m ρ c (Proc.devRef .tc main_v18) = h1 m c :=
  (KKeep.keep2_1_v18 (W5 m ρ c)).trans (W5_v18 m ρ c)
theorem W6_v1 : W6 m ρ c (Proc.devRef .tc main_v1) = xs m c :=
  (KKeep.keep2_1_v1 (W5 m ρ c)).trans (W5_v1 m ρ c)
theorem W6_v3 : W6 m ρ c (Proc.devRef .tc main_v3) = xd m c :=
  (KKeep.keep2_1_v3 (W5 m ρ c)).trans (W5_v3 m ρ c)
theorem W6_arg2 : W6 m ρ c (Proc.devRef .tc main_arg2) = m ((c : Thread nD τ).loc main_arg2) :=
  (KKeep.keep2_1_arg2 (W5 m ρ c)).trans (W5_arg2 m ρ c)
theorem W6_arg8 : W6 m ρ c (Proc.devRef .tc main_arg8) = m ((c : Thread nD τ).loc main_arg8) :=
  (KKeep.keep2_1_arg8 (W5 m ρ c)).trans (W5_arg8 m ρ c)
theorem W6_arg9 : W6 m ρ c (Proc.devRef .tc main_arg9) = m ((c : Thread nD τ).loc main_arg9) :=
  (KKeep.keep2_1_arg9 (W5 m ρ c)).trans (W5_arg9 m ρ c)
theorem W6_arg10 : W6 m ρ c (Proc.devRef .tc main_arg10) = m ((c : Thread nD τ).loc main_arg10) :=
  (KKeep.keep2_1_arg10 (W5 m ρ c)).trans (W5_arg10 m ρ c)
theorem W6_arg11 : W6 m ρ c (Proc.devRef .tc main_arg11) = m ((c : Thread nD τ).loc main_arg11) :=
  (KKeep.keep2_1_arg11 (W5 m ρ c)).trans (W5_arg11 m ρ c)
theorem W6_arg12 : W6 m ρ c (Proc.devRef .tc main_arg12) = m ((c : Thread nD τ).loc main_arg12) :=
  (KKeep.keep2_1_arg12 (W5 m ρ c)).trans (W5_arg12 m ρ c)

/-! ## Boundary 7: after region 2, the normalisation with the relu -/

theorem W7_v23 : W7 m ρ c (Proc.devRef .tc main_v23) = h2 m c :=
  (W7_arr m ρ c 5).trans ((KBlocks.region2 (V6 m ρ) c).trans (by
    show Cert.Spec.relu (F := Ideal) (Cert.Spec.bn (W6 m ρ c (Proc.devRef .tc main_v18)) (W6 m ρ c (Proc.devRef .tc main_v21)) (W6 m ρ c (Proc.devRef .tc main_v22)) (W6 m ρ c (Proc.devRef .tc main_arg11)) (W6 m ρ c (Proc.devRef .tc main_arg12))) = _
    rw [W6_v18 m ρ c, W6_v21 m ρ c, W6_v22 m ρ c, W6_arg11 m ρ c, W6_arg12 m ρ c]))
theorem W7_v1 : W7 m ρ c (Proc.devRef .tc main_v1) = xs m c :=
  (W7_of_ne m ρ c main_v1 (by decide)).trans (W6_v1 m ρ c)
theorem W7_v3 : W7 m ρ c (Proc.devRef .tc main_v3) = xd m c :=
  (W7_of_ne m ρ c main_v3 (by decide)).trans (W6_v3 m ρ c)
theorem W7_arg2 : W7 m ρ c (Proc.devRef .tc main_arg2) = m ((c : Thread nD τ).loc main_arg2) :=
  (W7_of_ne m ρ c main_arg2 (by decide)).trans (W6_arg2 m ρ c)
theorem W7_arg8 : W7 m ρ c (Proc.devRef .tc main_arg8) = m ((c : Thread nD τ).loc main_arg8) :=
  (W7_of_ne m ρ c main_arg8 (by decide)).trans (W6_arg8 m ρ c)
theorem W7_arg9 : W7 m ρ c (Proc.devRef .tc main_arg9) = m ((c : Thread nD τ).loc main_arg9) :=
  (W7_of_ne m ρ c main_arg9 (by decide)).trans (W6_arg9 m ρ c)
theorem W7_arg10 : W7 m ρ c (Proc.devRef .tc main_arg10) = m ((c : Thread nD τ).loc main_arg10) :=
  (W7_of_ne m ρ c main_arg10 (by decide)).trans (W6_arg10 m ρ c)
theorem W7_arg11 : W7 m ρ c (Proc.devRef .tc main_arg11) = m ((c : Thread nD τ).loc main_arg11) :=
  (W7_arr m ρ c 3).trans ((((dat2 (V6 m ρ) c).arrAt_in 3 rfl _).trans (A_eq2 (V6 m ρ) c 3)).trans (W6_arg11 m ρ c))
theorem W7_arg12 : W7 m ρ c (Proc.devRef .tc main_arg12) = m ((c : Thread nD τ).loc main_arg12) :=
  (W7_arr m ρ c 4).trans ((((dat2 (V6 m ρ) c).arrAt_in 4 rfl _).trans (A_eq2 (V6 m ρ) c 4)).trans (W6_arg12 m ρ c))

/-! ## Boundary 8: after the second aggregation -/

theorem W8_v36 : W8 m ρ c (Proc.devRef .tc main_v36) = g2 m c :=
  (KHost.agg2 (W7 m ρ c)).trans (by rw [W7_v23 m ρ c, W7_v1 m ρ c, W7_v3 m ρ c, W7_arg2 m ρ c])
theorem W8_v23 : W8 m ρ c (Proc.devRef .tc main_v23) = h2 m c :=
  (KKeep.keep3_v23 (W7 m ρ c)).trans (W7_v23 m ρ c)
theorem W8_arg8 : W8 m ρ c (Proc.devRef .tc main_arg8) = m ((c : Thread nD τ).loc main_arg8) :=
  (KKeep.keep3_arg8 (W7 m ρ c)).trans (W7_arg8 m ρ c)
theorem W8_arg9 : W8 m ρ c (Proc.devRef .tc main_arg9) = m ((c : Thread nD τ).loc main_arg9) :=
  (KKeep.keep3_arg9 (W7 m ρ c)).trans (W7_arg9 m ρ c)
theorem W8_arg10 : W8 m ρ c (Proc.devRef .tc main_arg10) = m ((c : Thread nD τ).loc main_arg10) :=
  (KKeep.keep3_arg10 (W7 m ρ c)).trans (W7_arg10 m ρ c)
theorem W8_arg11 : W8 m ρ c (Proc.devRef .tc main_arg11) = m ((c : Thread nD τ).loc main_arg11) :=
  (KKeep.keep3_arg11 (W7 m ρ c)).trans (W7_arg11 m ρ c)
theorem W8_arg12 : W8 m ρ c (Proc.devRef .tc main_arg12) = m ((c : Thread nD τ).loc main_arg12) :=
  (KKeep.keep3_arg12 (W7 m ρ c)).trans (W7_arg12 m ρ c)

/-! ## Boundary 9: after region 3, the second graph convolution -/

theorem W9_v37 : W9 m ρ c (Proc.devRef .tc main_v37) = h3 m c :=
  (W9_arr m ρ c 5).trans ((KBlocks.region3 (V8 m ρ) c).trans (by
    show Cert.Spec.comb (F := Ideal) (W8 m ρ c (Proc.devRef .tc main_v36)) (W8 m ρ c (Proc.devRef .tc main_v23)) (W8 m ρ c (Proc.devRef .tc main_arg8)) (W8 m ρ c (Proc.devRef .tc main_arg9)) (W8 m ρ c (Proc.devRef .tc main_arg10)) = _
    rw [W8_v36 m ρ c, W8_v23 m ρ c, W8_arg8 m ρ c, W8_arg9 m ρ c, W8_arg10 m ρ c]))
theorem W9_arg11 : W9 m ρ c (Proc.devRef .tc main_arg11) = m ((c : Thread nD τ).loc main_arg11) :=
  (W9_of_ne m ρ c main_arg11 (by decide)).trans (W8_arg11 m ρ c)
theorem W9_arg12 : W9 m ρ c (Proc.devRef .tc main_arg12) = m ((c : Thread nD τ).loc main_arg12) :=
  (W9_of_ne m ρ c main_arg12 (by decide)).trans (W8_arg12 m ρ c)

/-! ## Boundaries 10 and 11: after the mean and after the variance of the second convolution -/

theorem W10_v40 : W10 m ρ c (Proc.devRef .tc main_v40) = Cert.Spec.mean (h3 m c) :=
  (KHost.mean2 (W9 m ρ c)).trans (by rw [W9_v37 m ρ c])
theorem W10_c_9 : W10 m ρ c (Proc.devRef .tc main_c_9) = constantI S_ 32 0#32 :=
  KHost.zero2 (W9 m ρ c)
theorem W10_v37 : W10 m ρ c (Proc.devRef .tc main_v37) = h3 m c :=
  (KKeep.keep4_v37 (W9 m ρ c)).trans (W9_v37 m ρ c)
theorem W10_arg11 : W10 m ρ c (Proc.devRef .tc main_arg11) = m ((c : Thread nD τ).loc main_arg11) :=
  (KKeep.keep4_arg11 (W9 m ρ c)).trans (W9_arg11 m ρ c)
theorem W10_arg12 : W10 m ρ c (Proc.devRef .tc main_arg12) = m ((c : Thread nD τ).loc main_arg12) :=
  (KKeep.keep4_arg12 (W9 m ρ c)).trans (W9_arg12 m ρ c)
theorem W11_v41 : W11 m ρ c (Proc.devRef .tc main_v41) = Cert.Spec.var (h3 m c) :=
  (KHost.var2 (W10 m ρ c) (W10_c_9 m ρ c)).trans (by rw [W10_v37 m ρ c])
theorem W11_v40 : W11 m ρ c (Proc.devRef .tc main_v40) = Cert.Spec.mean (h3 m c) :=
  (KKeep.keep4_1_v40 (W10 m ρ c)).trans (W10_v40 m ρ c)
theorem W11_v37 : W11 m ρ c (Proc.devRef .tc main_v37) = h3 m c :=
  (KKeep.keep4_1_v37 (W10 m ρ c)).trans (W10_v37 m ρ c)
theorem W11_arg11 : W11 m ρ c (Proc.devRef .tc main_arg11) = m ((c : Thread nD τ).loc main_arg11) :=
  (KKeep.keep4_1_arg11 (W10 m ρ c)).trans (W10_arg11 m ρ c)
theorem W11_arg12 : W11 m ρ c (Proc.devRef .tc main_arg12) = m ((c : Thread nD τ).loc main_arg12) :=
  (KKeep.keep4_1_arg12 (W10 m ρ c)).trans (W10_arg12 m ρ c)

/-! ## Boundary 12: after region 4, the last normalisation — the network -/

theorem W12_v42 : W12 m ρ c (Proc.devRef .tc main_v42)
    = Cert.Spec.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W12_arr m ρ c 5).trans ((KBlocks.region4 (V11 m ρ) c).trans (by
    show Cert.Spec.bn (F := Ideal) (W11 m ρ c (Proc.devRef .tc main_v37)) (W11 m ρ c (Proc.devRef .tc main_v40)) (W11 m ρ c (Proc.devRef .tc main_v41)) (W11 m ρ c (Proc.devRef .tc main_arg11)) (W11 m ρ c (Proc.devRef .tc main_arg12)) = _
    rw [W11_v37 m ρ c, W11_v40 m ρ c, W11_v41 m ρ c, W11_arg11 m ρ c, W11_arg12 m ρ c]
    rfl))

end Cert.KernelIdeal.KValue

end
-- ==== Proof.RefOps.lean ====
/-
  The reference's host program as one straight line of operations.

  The program is two consecutive windows; it calls the outlined relu twice and the outlined variance twice, and
  the variance calls the outlined "where". A call is its callee's operations run on the call's own buffers, so each
  window is the list of its own operations with, at every call, the callee's operations spelt over that call's
  buffer record: relu is three (the zero, its broadcast, the maximum), the variance twenty-two (the mean of the
  rows, the squared deviations, their sum, the divisor n - 0, the quotient, the comparison of the divisor with
  zero, and the three of "where": the not-a-number constant, its broadcast, the selection).
  `ops0` lists the first window (eighty-five operations), `ops1` the second (sixty-six).
-/
import proofs.«155673_j17626545783593_1_alg».proof.Proof.Gen.ReferenceIdeal
import Idealize.ShloMosaic.Lib.StableHlo.Run

noncomputable section

namespace Cert.ReferenceIdeal.RefOps

open Cert.ReferenceIdeal Cert.ReferenceIdeal.Facts₀ Idealize.ShloMosaic Idealize.ShloMosaic.TcCoe Idealize.SL.Sem Idealize.ShloMosaic.StableHlo

variable {F : FTy → Type} [FloatOps F]

/-- The first window's operations, in order, the calls (relu, the variance with its "where", relu) spelt out. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg3 main_v4 ((transpose S256x128 [1, 0] · transposes_S128x256_S256x128_1_0) : (⟨S128x256, .f32⟩ : BufTy).Contents (Elt F) → (⟨S256x128, .f32⟩ : BufTy).Contents (Elt F)),
    StableHlo.binary main_arg0 main_v4 main_v5 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg4 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S50000x128 ![0, 1] bcast_S1x128_S50000x128_0_1 : (⟨S1x128, .f32⟩ : BufTy).Contents (Elt F) → (⟨S50000x128, .f32⟩ : BufTy).Contents (Elt F)),
    StableHlo.binary main_v5 main_v7 main_v8 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v8 : TRef sig ⟨S50000x128, .f32⟩) main_call0.v0 main_call0.v1 maximumf,
    StableHlo.nullary main_c (constantI S_ 32 0#32),
    StableHlo.unary main_c main_v10 (broadcastInDim S800000 ![] bcast_S_S800000 : (⟨S_, .i32⟩ : BufTy).Contents (Elt F) → (⟨S800000, .i32⟩ : BufTy).Contents (Elt F)),
    StableHlo.binary main_v1 main_v10 main_v11 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v12 (broadcastInDim S800000 ![] bcast_S_S800000 : (⟨S_, .i32⟩ : BufTy).Contents (Elt F) → (⟨S800000, .i32⟩ : BufTy).Contents (Elt F)),
    StableHlo.binary main_v1 main_v12 main_v13 (addi : (⟨S800000, .i32⟩ : BufTy).Contents (Elt F) → (⟨S800000, .i32⟩ : BufTy).Contents (Elt F) → (⟨S800000, .i32⟩ : BufTy).Contents (Elt F)),
    StableHlo.ternary main_v11 main_v13 main_v1 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v14 main_v15 (broadcastInDim S800000x1 ![0] bcast_S800000_S800000x1_0 : (⟨S800000, .i32⟩ : BufTy).Contents (Elt F) → (⟨S800000x1, .i32⟩ : BufTy).Contents (Elt F)),
    StableHlo.binary main_v9 main_v15 main_v16 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg2 main_v17 (broadcastInDim S800000x1 ![0] bcast_S800000_S800000x1_0 : (⟨S800000, .f32⟩ : BufTy).Contents (Elt F) → (⟨S800000x1, .f32⟩ : BufTy).Contents (Elt F)),
    StableHlo.unary main_v17 main_v18 (broadcastInDim S800000x128 ![0, 1] bcast_S800000x1_S800000x128_0_1 : (⟨S800000x1, .f32⟩ : BufTy).Contents (Elt F) → (⟨S800000x128, .f32⟩ : BufTy).Contents (Elt F)),
    StableHlo.binary main_v16 main_v18 main_v19 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v20 (broadcastInDim S50000x128 ![] bcast_S_S50000x128 : (⟨S_, .f32⟩ : BufTy).Contents (Elt F) → (⟨S50000x128, .f32⟩ : BufTy).Contents (Elt F)),
    StableHlo.unary main_v3 main_v21 (broadcastInDim S800000x1 ![0] bcast_S800000_S800000x1_0 : (⟨S800000, .i32⟩ : BufTy).Contents (Elt F) → (⟨S800000x1, .i32⟩ : BufTy).Contents (Elt F)),
    StableHlo.ternary main_v20 main_v21 main_v19 main_v22 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg5 main_v23 ((transpose S128x128 [1, 0] · transposes_S128x128_S128x128_1_0) : (⟨S128x128, .f32⟩ : BufTy).Contents (Elt F) → (⟨S128x128, .f32⟩ : BufTy).Contents (Elt F)),
    StableHlo.binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S50000x128 ![0, 1] bcast_S1x128_S50000x128_0_1 : (⟨S1x128, .f32⟩ : BufTy).Contents (Elt F) → (⟨S50000x128, .f32⟩ : BufTy).Contents (Elt F)),
    StableHlo.binary main_v24 main_v26 main_v27 (addf : (⟨S50000x128, .f32⟩ : BufTy).Contents (Elt F) → (⟨S50000x128, .f32⟩ : BufTy).Contents (Elt F) → (⟨S50000x128, .f32⟩ : BufTy).Contents (Elt F)),
    StableHlo.unary main_arg7 main_v28 ((transpose S128x128 [1, 0] · transposes_S128x128_S128x128_1_0) : (⟨S128x128, .f32⟩ : BufTy).Contents (Elt F) → (⟨S128x128, .f32⟩ : BufTy).Contents (Elt F)),
    StableHlo.binary main_v9 main_v28 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v27 main_v29 main_v30 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.binary main_v30 main_cst_1 main_v31 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v32 (broadcastInDim S128 ![] bcast_S_S128 : (⟨S_, .f32⟩ : BufTy).Contents (Elt F) → (⟨S128, .f32⟩ : BufTy).Contents (Elt F)),
    StableHlo.binary main_v31 main_v32 main_v33 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call1.cst (constant S_ .f32 0x00000000#32),
    StableHlo.TRef.binary (.of main_v30 : TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v30 : TRef sig ⟨S50000x128, .f32⟩) main_call1.v4 main_call1.v5 subf,
    StableHlo.TRef.binary main_call1.v5 main_call1.v5 main_call1.v6 mulf,
    StableHlo.TRef.unary (.of main_c_3 : TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v33 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v36 main_v37 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v38 (broadcastInDim S128 ![] bcast_S_S128 : (⟨S_, .f32⟩ : BufTy).Contents (Elt F) → (⟨S128, .f32⟩ : BufTy).Contents (Elt F)),
    StableHlo.binary main_v34 main_v38 main_v39 (addf : (⟨S128, .f32⟩ : BufTy).Contents (Elt F) → (⟨S128, .f32⟩ : BufTy).Contents (Elt F) → (⟨S128, .f32⟩ : BufTy).Contents (Elt F)),
    StableHlo.unary main_v39 main_v40 (Host.rsqrt : (⟨S128, .f32⟩ : BufTy).Contents (Elt F) → (⟨S128, .f32⟩ : BufTy).Contents (Elt F)),
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v42 main_v43 (mulf : (⟨S50000x128, .f32⟩ : BufTy).Contents (Elt F) → (⟨S50000x128, .f32⟩ : BufTy).Contents (Elt F) → (⟨S50000x128, .f32⟩ : BufTy).Contents (Elt F)),
    StableHlo.unary main_arg11 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (mulf : (⟨S50000x128, .f32⟩ : BufTy).Contents (Elt F) → (⟨S50000x128, .f32⟩ : BufTy).Contents (Elt F) → (⟨S50000x128, .f32⟩ : BufTy).Contents (Elt F)),
    StableHlo.unary main_arg12 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v49 : TRef sig ⟨S50000x128, .f32⟩) main_call2.v0 main_call2.v1 maximumf,
    StableHlo.nullary main_c_5 (constantI S_ 32 0#32),
    StableHlo.unary main_c_5 main_v51 (broadcastInDim S800000 ![] bcast_S_S800000 : (⟨S_, .i32⟩ : BufTy).Contents (Elt F) → (⟨S800000, .i32⟩ : BufTy).Contents (Elt F)) ]

/-- The second window's operations, in order, the call of the variance spelt out. -/
abbrev ops1 : List (HloOp τ sig (Elt F)) :=
  [ StableHlo.binary main_v1 main_v51 main_v52 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v53 (broadcastInDim S800000 ![] bcast_S_S800000 : (⟨S_, .i32⟩ : BufTy).Contents (Elt F) → (⟨S800000, .i32⟩ : BufTy).Contents (Elt F)),
    StableHlo.binary main_v1 main_v53 main_v54 (addi : (⟨S800000, .i32⟩ : BufTy).Contents (Elt F) → (⟨S800000, .i32⟩ : BufTy).Contents (Elt F) → (⟨S800000, .i32⟩ : BufTy).Contents (Elt F)),
    StableHlo.ternary main_v52 main_v54 main_v1 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v55 main_v56 (broadcastInDim S800000x1 ![0] bcast_S800000_S800000x1_0 : (⟨S800000, .i32⟩ : BufTy).Contents (Elt F) → (⟨S800000x1, .i32⟩ : BufTy).Contents (Elt F)),
    StableHlo.binary main_v50 main_v56 main_v57 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg2 main_v58 (broadcastInDim S800000x1 ![0] bcast_S800000_S800000x1_0 : (⟨S800000, .f32⟩ : BufTy).Contents (Elt F) → (⟨S800000x1, .f32⟩ : BufTy).Contents (Elt F)),
    StableHlo.unary main_v58 main_v59 (broadcastInDim S800000x128 ![0, 1] bcast_S800000x1_S800000x128_0_1 : (⟨S800000x1, .f32⟩ : BufTy).Contents (Elt F) → (⟨S800000x128, .f32⟩ : BufTy).Contents (Elt F)),
    StableHlo.binary main_v57 main_v59 main_v60 (mulf : (⟨S800000x128, .f32⟩ : BufTy).Contents (Elt F) → (⟨S800000x128, .f32⟩ : BufTy).Contents (Elt F) → (⟨S800000x128, .f32⟩ : BufTy).Contents (Elt F)),
    StableHlo.nullary main_cst_7 (constant S_ .f32 0x00000000#32),
    StableHlo.unary main_cst_7 main_v61 (broadcastInDim S50000x128 ![] bcast_S_S50000x128 : (⟨S_, .f32⟩ : BufTy).Contents (Elt F) → (⟨S50000x128, .f32⟩ : BufTy).Contents (Elt F)),
    StableHlo.unary main_v3 main_v62 (broadcastInDim S800000x1 ![0] bcast_S800000_S800000x1_0 : (⟨S800000, .i32⟩ : BufTy).Contents (Elt F) → (⟨S800000x1, .i32⟩ : BufTy).Contents (Elt F)),
    StableHlo.ternary main_v61 main_v62 main_v60 main_v63 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg8 main_v64 ((transpose S128x128 [1, 0] · transposes_S128x128_S128x128_1_0) : (⟨S128x128, .f32⟩ : BufTy).Contents (Elt F) → (⟨S128x128, .f32⟩ : BufTy).Contents (Elt F)),
    StableHlo.binary main_v63 main_v64 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v67 main_v68 (addf : (⟨S50000x128, .f32⟩ : BufTy).Contents (Elt F) → (⟨S50000x128, .f32⟩ : BufTy).Contents (Elt F) → (⟨S50000x128, .f32⟩ : BufTy).Contents (Elt F)),
    StableHlo.unary main_arg10 main_v69 ((transpose S128x128 [1, 0] · transposes_S128x128_S128x128_1_0) : (⟨S128x128, .f32⟩ : BufTy).Contents (Elt F) → (⟨S128x128, .f32⟩ : BufTy).Contents (Elt F)),
    StableHlo.binary main_v50 main_v69 main_v70 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v68 main_v70 main_v71 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.binary main_v71 main_cst_8 main_v72 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v73 (broadcastInDim S128 ![] bcast_S_S128 : (⟨S_, .f32⟩ : BufTy).Contents (Elt F) → (⟨S128, .f32⟩ : BufTy).Contents (Elt F)),
    StableHlo.binary main_v72 main_v73 main_v74 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call3.cst (constant S_ .f32 0x00000000#32),
    StableHlo.TRef.binary (.of main_v71 : TRef sig ⟨S50000x128, .f32⟩) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (.of main_v71 : TRef sig ⟨S50000x128, .f32⟩) main_call3.v4 main_call3.v5 subf,
    StableHlo.TRef.binary main_call3.v5 main_call3.v5 main_call3.v6 mulf,
    StableHlo.TRef.unary (.of main_c_10 : TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v74 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v77 main_v78 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v79 (broadcastInDim S128 ![] bcast_S_S128 : (⟨S_, .f32⟩ : BufTy).Contents (Elt F) → (⟨S128, .f32⟩ : BufTy).Contents (Elt F)),
    StableHlo.binary main_v75 main_v79 main_v80 (addf : (⟨S128, .f32⟩ : BufTy).Contents (Elt F) → (⟨S128, .f32⟩ : BufTy).Contents (Elt F) → (⟨S128, .f32⟩ : BufTy).Contents (Elt F)),
    StableHlo.unary main_v80 main_v81 (Host.rsqrt : (⟨S128, .f32⟩ : BufTy).Contents (Elt F) → (⟨S128, .f32⟩ : BufTy).Contents (Elt F)),
    StableHlo.unary main_v81 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v83 main_v84 (mulf : (⟨S50000x128, .f32⟩ : BufTy).Contents (Elt F) → (⟨S50000x128, .f32⟩ : BufTy).Contents (Elt F) → (⟨S50000x128, .f32⟩ : BufTy).Contents (Elt F)),
    StableHlo.unary main_arg11 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v86 main_v87 (mulf : (⟨S50000x128, .f32⟩ : BufTy).Contents (Elt F) → (⟨S50000x128, .f32⟩ : BufTy).Contents (Elt F) → (⟨S50000x128, .f32⟩ : BufTy).Contents (Elt F)),
    StableHlo.unary main_arg12 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v89 main_v90 (addf : (⟨S50000x128, .f32⟩ : BufTy).Contents (Elt F) → (⟨S50000x128, .f32⟩ : BufTy).Contents (Elt F) → (⟨S50000x128, .f32⟩ : BufTy).Contents (Elt F)) ]

/-- The whole program's operations: the first window's, then the second's. -/
abbrev ops : List (HloOp τ sig (Elt F)) := ops0 ++ ops1

set_option maxRecDepth 4096 in
set_option maxHeartbeats 1600000 in
/-- The first window is that line: the callees' definitions unfolded at their calls and the records at their fields,
    both sides are one chain of steps once sequencing is re-associated. -/
theorem part0_eq (c : Dev nD) : main_part0 (F := F) c = seq ops0 := by
  simp only [main_part0, fn_relu.body, fn_var.body, fn_where.body, seq, bind_assoc, pure_bind]
  rfl

set_option maxRecDepth 4096 in
set_option maxHeartbeats 1600000 in
/-- The second window likewise. -/
theorem part1_eq (c : Dev nD) : main_part1 (F := F) c = seq ops1 := by
  simp only [main_part1, fn_var.body, fn_where.body, seq, bind_assoc, pure_bind]

/-- The program is the two windows in order, so the line of all its operations. -/
theorem main_eq (c : Dev nD) : main (F := F) c = seq ops := by
  show (main_part0 (F := F) c >>= fun _ => main_part1 (F := F) c) = seq (ops0 ++ ops1)
  rw [seq_append, part0_eq, part1_eq]

theorem scopedRefs_eq : (Finset.univ.filter fun b : Ref sig .tc => b.isScoped) = ∅ := by decide
theorem scopedSems_eq : (Finset.univ.filter fun sm : SemLoc sig => sm.isScoped .tc) = ∅ := by decide

/-- Every operation of the first window touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., binary_bufs_sub ..,
    unary_bufs_sub .., unary_bufs_sub .., binary_bufs_sub .., unary_bufs_sub .., binary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub ..⟩

/-- Every operation of the second window touches TensorCore references only. -/
theorem ops1_sub : (ops1 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., binary_bufs_sub .., unary_bufs_sub .., unary_bufs_sub ..,
    binary_bufs_sub .., unary_bufs_sub .., binary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..⟩

/-- So does every operation of the program. -/
theorem ops_sub : (ops : List (HloOp τ sig (Elt F))).Forall fun op => op.bufs ⊆ tcRefs τ sig := by
  rw [List.forall_iff_forall_mem]
  intro op h
  rcases List.mem_append.mp h with h | h
  · exact (List.forall_iff_forall_mem.mp ops0_sub) op h
  · exact (List.forall_iff_forall_mem.mp ops1_sub) op h

/-- Every operation determines its results: none allocates. -/
theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.mp h with h | h
  · exact ops0_fresh op h
  · exact ops1_fresh op h

/-- The contents after two lines run in order are the second line's after the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

end Cert.ReferenceIdeal.RefOps

end
-- ==== Proof.RefRun.lean ====
/-
  The reference's run: every weakly fair execution of its host program terminates with the result array at the
  network's value `Cert.Spec.net` of the argument arrays, the arguments unchanged.
-/
import proofs.«155673_j17626545783593_1_alg».proof.Proof.Spec
import proofs.«155673_j17626545783593_1_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps

section Fold

variable {F : FTy → Type} [FloatOps F]

attribute [local irreducible] Host.reduceAdd Host.gather Host.scatterAdd in
set_option maxRecDepth 8192 in
set_option maxHeartbeats 4000000 in
/-- The result array after the whole line is the network's value of the argument arrays: each operation's result
    read at its own buffer is its function's value, at any other buffer what was there, and the composed term is the
    network's stages unfolded (the edge aggregation, the sums over the nodes and the products are never opened). -/
theorem out_eq (V : Valuation τ sig (Elt F)) :
    after ops V (Proc.devRef .tc main_v90) = Cert.Spec.net (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_append']
  after_results_simp
  rfl

set_option maxRecDepth 8192 in
set_option maxHeartbeats 4000000 in
/-- No operation writes argument 0: it keeps its contents. -/
theorem arg0_eq (V : Valuation τ sig (Elt F)) :
    after ops V (Proc.devRef .tc main_arg0) = V (Proc.devRef .tc main_arg0) := by
  rw [after_append']
  after_results_simp

set_option maxRecDepth 8192 in
set_option maxHeartbeats 4000000 in
/-- No operation writes argument 1: it keeps its contents. -/
theorem arg1_eq (V : Valuation τ sig (Elt F)) :
    after ops V (Proc.devRef .tc main_arg1) = V (Proc.devRef .tc main_arg1) := by
  rw [after_append']
  after_results_simp

set_option maxRecDepth 8192 in
set_option maxHeartbeats 4000000 in
/-- No operation writes argument 2: it keeps its contents. -/
theorem arg2_eq (V : Valuation τ sig (Elt F)) :
    after ops V (Proc.devRef .tc main_arg2) = V (Proc.devRef .tc main_arg2) := by
  rw [after_append']
  after_results_simp

set_option maxRecDepth 8192 in
set_option maxHeartbeats 4000000 in
/-- No operation writes argument 3: it keeps its contents. -/
theorem arg3_eq (V : Valuation τ sig (Elt F)) :
    after ops V (Proc.devRef .tc main_arg3) = V (Proc.devRef .tc main_arg3) := by
  rw [after_append']
  after_results_simp

set_option maxRecDepth 8192 in
set_option maxHeartbeats 4000000 in
/-- No operation writes argument 4: it keeps its contents. -/
theorem arg4_eq (V : Valuation τ sig (Elt F)) :
    after ops V (Proc.devRef .tc main_arg4) = V (Proc.devRef .tc main_arg4) := by
  rw [after_append']
  after_results_simp

set_option maxRecDepth 8192 in
set_option maxHeartbeats 4000000 in
/-- No operation writes argument 5: it keeps its contents. -/
theorem arg5_eq (V : Valuation τ sig (Elt F)) :
    after ops V (Proc.devRef .tc main_arg5) = V (Proc.devRef .tc main_arg5) := by
  rw [after_append']
  after_results_simp

set_option maxRecDepth 8192 in
set_option maxHeartbeats 4000000 in
/-- No operation writes argument 6: it keeps its contents. -/
theorem arg6_eq (V : Valuation τ sig (Elt F)) :
    after ops V (Proc.devRef .tc main_arg6) = V (Proc.devRef .tc main_arg6) := by
  rw [after_append']
  after_results_simp

set_option maxRecDepth 8192 in
set_option maxHeartbeats 4000000 in
/-- No operation writes argument 7: it keeps its contents. -/
theorem arg7_eq (V : Valuation τ sig (Elt F)) :
    after ops V (Proc.devRef .tc main_arg7) = V (Proc.devRef .tc main_arg7) := by
  rw [after_append']
  after_results_simp

set_option maxRecDepth 8192 in
set_option maxHeartbeats 4000000 in
/-- No operation writes argument 8: it keeps its contents. -/
theorem arg8_eq (V : Valuation τ sig (Elt F)) :
    after ops V (Proc.devRef .tc main_arg8) = V (Proc.devRef .tc main_arg8) := by
  rw [after_append']
  after_results_simp

set_option maxRecDepth 8192 in
set_option maxHeartbeats 4000000 in
/-- No operation writes argument 9: it keeps its contents. -/
theorem arg9_eq (V : Valuation τ sig (Elt F)) :
    after ops V (Proc.devRef .tc main_arg9) = V (Proc.devRef .tc main_arg9) := by
  rw [after_append']
  after_results_simp

set_option maxRecDepth 8192 in
set_option maxHeartbeats 4000000 in
/-- No operation writes argument 10: it keeps its contents. -/
theorem arg10_eq (V : Valuation τ sig (Elt F)) :
    after ops V (Proc.devRef .tc main_arg10) = V (Proc.devRef .tc main_arg10) := by
  rw [after_append']
  after_results_simp

set_option maxRecDepth 8192 in
set_option maxHeartbeats 4000000 in
/-- No operation writes argument 11: it keeps its contents. -/
theorem arg11_eq (V : Valuation τ sig (Elt F)) :
    after ops V (Proc.devRef .tc main_arg11) = V (Proc.devRef .tc main_arg11) := by
  rw [after_append']
  after_results_simp

set_option maxRecDepth 8192 in
set_option maxHeartbeats 4000000 in
/-- No operation writes argument 12: it keeps its contents. -/
theorem arg12_eq (V : Valuation τ sig (Elt F)) :
    after ops V (Proc.devRef .tc main_arg12) = V (Proc.devRef .tc main_arg12) := by
  rw [after_append']
  after_results_simp

end Fold

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v90) = Cert.Spec.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v90).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_seq scopedRefs_eq scopedSems_eq defs main (fun _ => ops) main_eq (fun _ => ops_sub) m ρ (fun _ => ops_fresh))

end Cert.ReferenceIdeal.RefRun

end
-- ==== Proof.lean ====
/-
  The kernel — three tiled kernels (an input projection with relu, a graph convolution's combine step used twice, and a
  batch normalisation's normalise step used twice) around host-side gathers, scatter-adds and statistics — computes, at
  exact arithmetic, the same array as the plain reference: a two-layer graph convolution network with batch normalisation.

  Both programs are the same composition of stages (Proof/Spec.lean). The reference's run ends at that composition by
  unfolding (Proof/RefRun.lean). The kernel's run (Proof/KRun.lean) ends at the last boundary of the fold through its five
  regions and the host operations between them; that boundary is read back stage by stage (Proof/KValue.lean): a host
  stretch is the reference's own operations (Proof/KHost.lean) or leaves a buffer alone (Proof/KKeepA.lean, KKeepB.lean),
  and a region's ten row blocks are the ten row blocks of its stage (Proof/KBlocks0.lean … KBlocks4.lean), each stored tile
  read at an entry (Proof/PayLin.lean, PayComb.lean, PayBn.lean): the matrix products are the same sums over the contracted
  index, the rounding to bf16 before them is the identity at exact arithmetic, and every sum and product is taken in the
  same order on both sides, so no finiteness of the inputs is used. The ideal pass rewrote nothing, so `preserves` is trivial.
-/
import proofs.«155673_j17626545783593_1_alg».proof.Defs
import proofs.«155673_j17626545783593_1_alg».proof.Proof.Gen.Kernel
import proofs.«155673_j17626545783593_1_alg».proof.Proof.Gen.Kernel.Frame
import proofs.«155673_j17626545783593_1_alg».proof.Proof.Gen.KernelIdeal
import proofs.«155673_j17626545783593_1_alg».proof.Proof.Gen.KernelIdeal.Frame
import proofs.«155673_j17626545783593_1_alg».proof.Proof.Gen.ReferenceIdeal
import proofs.«155673_j17626545783593_1_alg».proof.Proof.Gen.Pre_finite_inputs
import proofs.«155673_j17626545783593_1_alg».proof.Proof.KRun
import proofs.«155673_j17626545783593_1_alg».proof.Proof.KValue
import proofs.«155673_j17626545783593_1_alg».proof.Proof.RefRun
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- Both programs end with the network's value of the (agreeing) argument arrays. -/
theorem algebraic : Cert.algebraic_KernelIdeal_ReferenceIdeal := by
  intro m ρ m' ρ' _ hagree
  refine ⟨fun c => Cert.Spec.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KValue.W12_v42 m ρ c), (h c).2⟩) (Cert.KernelIdeal.KRun.run m ρ)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7, e8, e9, e10, e11, e12⟩ := hagree c
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
